-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x2048 : Shape := ⟨2, ![32768, 2048]⟩
abbrev S32768x32 : Shape := ⟨2, ![32768, 32]⟩
abbrev S2080 : Shape := ⟨1, ![2080]⟩
abbrev S512 : Shape := ⟨1, ![512]⟩
abbrev S512x2080 : Shape := ⟨2, ![512, 2080]⟩
abbrev S512x512 : Shape := ⟨2, ![512, 512]⟩
abbrev S1x512 : Shape := ⟨2, ![1, 512]⟩
abbrev S1 : Shape := ⟨1, ![1]⟩
abbrev S_ : Shape := ⟨0, ![]⟩

class Facts : Prop where
  bcast_S_S32768x2048 : S_.BroadcastsInDim S32768x2048 (![] : Fin 0 → Fin S32768x2048.rank)
  reducesTo_S32768x2048_S_d0_1 : S32768x2048.ReducesTo [0, 1] S_
  h_S_ : 0 < S_.numel
  bcast_S_S32768x32 : S_.BroadcastsInDim S32768x32 (![] : Fin 0 → Fin S32768x32.rank)
  reducesTo_S32768x32_S_d0_1 : S32768x32.ReducesTo [0, 1] S_
  bcast_S_S2080 : S_.BroadcastsInDim S2080 (![] : Fin 0 → Fin S2080.rank)
  reducesTo_S2080_S_d0 : S2080.ReducesTo [0] S_
  bcast_S_S512 : S_.BroadcastsInDim S512 (![] : Fin 0 → Fin S512.rank)
  reducesTo_S512_S_d0 : S512.ReducesTo [0] S_
  bcast_S_S512x2080 : S_.BroadcastsInDim S512x2080 (![] : Fin 0 → Fin S512x2080.rank)
  reducesTo_S512x2080_S_d0_1 : S512x2080.ReducesTo [0, 1] S_
  bcast_S_S512x512 : S_.BroadcastsInDim S512x512 (![] : Fin 0 → Fin S512x512.rank)
  reducesTo_S512x512_S_d0_1 : S512x512.ReducesTo [0, 1] S_
  bcast_S_S1x512 : S_.BroadcastsInDim S1x512 (![] : Fin 0 → Fin S1x512.rank)
  reducesTo_S1x512_S_d0_1 : S1x512.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg14 : FVec F S1x512 .f32) (main_arg15 : FVec F S1 .f32) (main_v63 : IVec S_ 1) (main_v67 : IVec S_ 1) : IVec S_ 1 :=
  let main_v68 : IVec S_ 1 := andi main_v63 main_v67
  let main_v69 : FVec F S1x512 .f32 := Host.absf main_arg14
  let main_cst_26 : FVec F S_ .f32 := constant S_ .f32 0x7F800000#32
  let main_v70 : FVec F S1x512 .f32 := broadcastInDim S1x512 ![] bcast_S_S1x512 main_cst_26
  let main_v71 : IVec S1x512 1 := cmpf .olt main_v69 main_v70
  let main_c_27 : IVec S_ 1 := constantI S_ 1 1#1
  let main_v72 : IVec S_ 1 := (fun x v => Host.reduce IntOp.andi x v reducesTo_S1x512_S_d0_1 h_S_) main_v71 main_c_27
  let main_v73 : IVec S_ 1 := andi main_v68 main_v72
  let main_v74 : FVec F S1 .f32 := Host.absf main_arg15
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  main_v78

def fn_part3 {F : FTy → Type} [FloatOps F] (main_arg11 : FVec F S512 .f32) (main_arg12 : FVec F S512x512 .f32) (main_arg13 : FVec F S512 .f32) (main_arg14 : FVec F S1x512 .f32) (main_arg15 : FVec F S1 .f32) (main_v48 : IVec S_ 1) (main_v49 : FVec F S512x512 .f32) (main_v50 : FVec F S512x512 .f32) : IVec S_ 1 :=
  let main_v51 : IVec S512x512 1 := cmpf .olt main_v49 main_v50
  let main_c_19 : IVec S_ 1 := constantI S_ 1 1#1
  let main_v52 : IVec S_ 1 := (fun x v => Host.reduce IntOp.andi x v reducesTo_S512x512_S_d0_1 h_S_) main_v51 main_c_19
  let main_v53 : IVec S_ 1 := andi main_v48 main_v52
  let main_v54 : FVec F S512 .f32 := Host.absf main_arg11
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S512x512 .f32 := Host.absf main_arg12
  let main_cst_22 : FVec F S_ .f32 := constant S_ .f32 0x7F800000#32
  let main_v60 : FVec F S512x512 .f32 := broadcastInDim S512x512 ![] bcast_S_S512x512 main_cst_22
  let main_v61 : IVec S512x512 1 := cmpf .olt main_v59 main_v60
  let main_c_23 : IVec S_ 1 := constantI S_ 1 1#1
  let main_v62 : IVec S_ 1 := (fun x v => Host.reduce IntOp.andi x v reducesTo_S512x512_S_d0_1 h_S_) main_v61 main_c_23
  let main_v63 : IVec S_ 1 := andi main_v58 main_v62
  let main_v64 : FVec F S512 .f32 := Host.absf main_arg13
  let main_cst_24 : FVec F S_ .f32 := constant S_ .f32 0x7F800000#32
  let main_v65 : FVec F S512 .f32 := broadcastInDim S512 ![] bcast_S_S512 main_cst_24
  let main_v66 : IVec S512 1 := cmpf .olt main_v64 main_v65
  let main_c_25 : IVec S_ 1 := constantI S_ 1 1#1
  let main_v67 : IVec S_ 1 := (fun x v => Host.reduce IntOp.andi x v reducesTo_S512_S_d0 h_S_) main_v66 main_c_25
  fn_part4 (F := F) main_arg14 main_arg15 main_v63 main_v67

def fn_part2 {F : FTy → Type} [FloatOps F] (main_arg7 : FVec F S512 .f32) (main_arg8 : FVec F S512x2080 .f32) (main_arg9 : FVec F S512 .f32) (main_arg10 : FVec F S512x512 .f32) (main_arg11 : FVec F S512 .f32) (main_arg12 : FVec F S512x512 .f32) (main_arg13 : FVec F S512 .f32) (main_arg14 : FVec F S1x512 .f32) (main_arg15 : FVec F S1 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x2080 .f32 := Host.absf main_arg8
  let main_cst_14 : FVec F S_ .f32 := constant S_ .f32 0x7F800000#32
  let main_v40 : FVec F S512x2080 .f32 := broadcastInDim S512x2080 ![] bcast_S_S512x2080 main_cst_14
  let main_v41 : IVec S512x2080 1 := cmpf .olt main_v39 main_v40
  let main_c_15 : IVec S_ 1 := constantI S_ 1 1#1
  let main_v42 : IVec S_ 1 := (fun x v => Host.reduce IntOp.andi x v reducesTo_S512x2080_S_d0_1 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512x512 .f32 := Host.absf main_arg10
  let main_cst_18 : FVec F S_ .f32 := constant S_ .f32 0x7F800000#32
  let main_v50 : FVec F S512x512 .f32 := broadcastInDim S512x512 ![] bcast_S_S512x512 main_cst_18
  fn_part3 (F := F) main_arg11 main_arg12 main_arg13 main_arg14 main_arg15 main_v48 main_v49 main_v50

def fn_part1 {F : FTy → Type} [FloatOps F] (main_arg4 : FVec F S512 .f32) (main_arg5 : FVec F S512 .f32) (main_arg6 : FVec F S512 .f32) (main_arg7 : FVec F S512 .f32) (main_arg8 : FVec F S512x2080 .f32) (main_arg9 : FVec F S512 .f32) (main_arg10 : FVec F S512x512 .f32) (main_arg11 : FVec F S512 .f32) (main_arg12 : FVec F S512x512 .f32) (main_arg13 : FVec F S512 .f32) (main_arg14 : FVec F S1x512 .f32) (main_arg15 : FVec F S1 .f32) (main_v13 : IVec S_ 1) (main_v16 : IVec S2080 1) : IVec S_ 1 :=
  let main_c_5 : IVec S_ 1 := constantI S_ 1 1#1
  let main_v17 : IVec S_ 1 := (fun x v => Host.reduce IntOp.andi x v reducesTo_S2080_S_d0 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S32768x2048 .f32) (main_arg1 : FVec F S32768x32 .f32) (main_arg2 : FVec F S2080 .f32) (main_arg3 : FVec F S2080 .f32) (main_arg4 : FVec F S512 .f32) (main_arg5 : FVec F S512 .f32) (main_arg6 : FVec F S512 .f32) (main_arg7 : FVec F S512 .f32) (main_arg8 : FVec F S512x2080 .f32) (main_arg9 : FVec F S512 .f32) (main_arg10 : FVec F S512x512 .f32) (main_arg11 : FVec F S512 .f32) (main_arg12 : FVec F S512x512 .f32) (main_arg13 : FVec F S512 .f32) (main_arg14 : FVec F S1x512 .f32) (main_arg15 : FVec F S1 .f32) : IVec S_ 1 :=
  let main_v0 : FVec F S32768x2048 .f32 := Host.absf main_arg0
  let main_cst : FVec F S_ .f32 := constant S_ .f32 0x7F800000#32
  let main_v1 : FVec F S32768x2048 .f32 := broadcastInDim S32768x2048 ![] bcast_S_S32768x2048 main_cst
  let main_v2 : IVec S32768x2048 1 := cmpf .olt main_v0 main_v1
  let main_c : IVec S_ 1 := constantI S_ 1 1#1
  let main_v3 : IVec S_ 1 := (fun x v => Host.reduce IntOp.andi x v reducesTo_S32768x2048_S_d0_1 h_S_) main_v2 main_c
  let main_v4 : FVec F S32768x32 .f32 := Host.absf main_arg1
  let main_cst_0 : FVec F S_ .f32 := constant S_ .f32 0x7F800000#32
  let main_v5 : FVec F S32768x32 .f32 := broadcastInDim S32768x32 ![] bcast_S_S32768x32 main_cst_0
  let main_v6 : IVec S32768x32 1 := cmpf .olt main_v4 main_v5
  let main_c_1 : IVec S_ 1 := constantI S_ 1 1#1
  let main_v7 : IVec S_ 1 := (fun x v => Host.reduce IntOp.andi x v reducesTo_S32768x32_S_d0_1 h_S_) main_v6 main_c_1
  let main_v8 : IVec S_ 1 := andi main_v3 main_v7
  let main_v9 : FVec F S2080 .f32 := Host.absf main_arg2
  let main_cst_2 : FVec F S_ .f32 := constant S_ .f32 0x7F800000#32
  let main_v10 : FVec F S2080 .f32 := broadcastInDim S2080 ![] bcast_S_S2080 main_cst_2
  let main_v11 : IVec S2080 1 := cmpf .olt main_v9 main_v10
  let main_c_3 : IVec S_ 1 := constantI S_ 1 1#1
  let main_v12 : IVec S_ 1 := (fun x v => Host.reduce IntOp.andi x v reducesTo_S2080_S_d0 h_S_) main_v11 main_c_3
  let main_v13 : IVec S_ 1 := andi main_v8 main_v12
  let main_v14 : FVec F S2080 .f32 := Host.absf main_arg3
  let main_cst_4 : FVec F S_ .f32 := constant S_ .f32 0x7F800000#32
  let main_v15 : FVec F S2080 .f32 := broadcastInDim S2080 ![] bcast_S_S2080 main_cst_4
  let main_v16 : IVec S2080 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S32768x2048 : Shape := ⟨2, ![32768, 2048]⟩
abbrev S32768x32 : Shape := ⟨2, ![32768, 32]⟩
abbrev S2080 : Shape := ⟨1, ![2080]⟩
abbrev S512 : Shape := ⟨1, ![512]⟩
abbrev S512x2080 : Shape := ⟨2, ![512, 2080]⟩
abbrev S512x512 : Shape := ⟨2, ![512, 512]⟩
abbrev S1x512 : Shape := ⟨2, ![1, 512]⟩
abbrev S1 : Shape := ⟨1, ![1]⟩
abbrev S32768x1024 : Shape := ⟨2, ![32768, 1024]⟩
abbrev S_ : Shape := ⟨0, ![]⟩
abbrev S32768x2080 : Shape := ⟨2, ![32768, 2080]⟩
abbrev S1x2080 : Shape := ⟨2, ![1, 2080]⟩
abbrev S1x1 : Shape := ⟨2, ![1, 1]⟩
abbrev S32768x1 : Shape := ⟨2, ![32768, 1]⟩
abbrev S512x1 : Shape := ⟨2, ![512, 1]⟩

abbrev nBuf : Space → Nat
  | .hbm => 40
  | .vmem => 18
  | .smem => 0
  | _ => 0

abbrev bufTy : (tb : Table) → Fin (tcTables nBuf tb) → BufTy
  | .hbm, ⟨0, _⟩ => ⟨S32768x2048, .f32⟩
  | .hbm, ⟨1, _⟩ => ⟨S32768x32, .f32⟩
  | .hbm, ⟨2, _⟩ => ⟨S2080, .f32⟩
  | .hbm, ⟨3, _⟩ => ⟨S2080, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S512, .f32⟩
  | .hbm, ⟨8, _⟩ => ⟨S512x2080, .f32⟩
  | .hbm, ⟨9, _⟩ => ⟨S512, .f32⟩
  | .hbm, ⟨10, _⟩ => ⟨S512x512, .f32⟩
  | .hbm, ⟨11, _⟩ => ⟨S512, .f32⟩
  | .hbm, ⟨12, _⟩ => ⟨S512x512, .f32⟩
  | .hbm, ⟨13, _⟩ => ⟨S512, .f32⟩
  | .hbm, ⟨14, _⟩ => ⟨S1x512, .f32⟩
  | .hbm, ⟨15, _⟩ => ⟨S1, .f32⟩
  | .hbm, ⟨16, _⟩ => ⟨S32768x1024, .f32⟩
  | .hbm, ⟨17, _⟩ => ⟨S_, .f32⟩
  | .hbm, ⟨18, _⟩ => ⟨S32768x1024, .f32⟩
  | .hbm, ⟨19, _⟩ => ⟨S32768x1024, .f32⟩
  | .hbm, ⟨20, _⟩ => ⟨S32768x1024, .f32⟩
  | .hbm, ⟨21, _⟩ => ⟨S_, .f32⟩
  | .hbm, ⟨22, _⟩ => ⟨S32768x1024, .f32⟩
  | .hbm, ⟨23, _⟩ => ⟨S32768x1024, .f32⟩
  | .hbm, ⟨24, _⟩ => ⟨S32768x2080, .f32⟩
  | .hbm, ⟨25, _⟩ => ⟨S1x2080, .f32⟩
  | .hbm, ⟨26, _⟩ => ⟨S1x2080, .f32⟩
  | .hbm, ⟨27, _⟩ => ⟨S1x512, .f32⟩
  | .hbm, ⟨28, _⟩ => ⟨S1x512, .f32⟩
  | .hbm, ⟨29, _⟩ => ⟨S1x512, .f32⟩
  | .hbm, ⟨30, _⟩ => ⟨S1x512, .f32⟩
  | .hbm, ⟨31, _⟩ => ⟨S1x512, .f32⟩
  | .hbm, ⟨32, _⟩ => ⟨S1x512, .f32⟩
  | .hbm, ⟨33, _⟩ => ⟨S1x512, .f32⟩
  | .hbm, ⟨34, _⟩ => ⟨S1x1, .f32⟩
  | .hbm, ⟨35, _⟩ => ⟨S512x2080, .bf16⟩
  | .hbm, ⟨36, _⟩ => ⟨S512x512, .bf16⟩
  | .hbm, ⟨37, _⟩ => ⟨S512x512, .bf16⟩
  | .hbm, ⟨38, _⟩ => ⟨S1x512, .bf16⟩
  | .hbm, ⟨39, _⟩ => ⟨S32768x1, .f32⟩
  | .local _ .vmem, ⟨0, _⟩ => ⟨S512x2080, .f32⟩
  | .local _ .vmem, ⟨1, _⟩ => ⟨S512x2080, .f32⟩
  | .local _ .vmem, ⟨2, _⟩ => ⟨S1x2080, .f32⟩
  | .local _ .vmem, ⟨3, _⟩ => ⟨S1x2080, .f32⟩
  | .local _ .vmem, ⟨4, _⟩ => ⟨S512x2080, .bf16⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S512x512, .bf16⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S512x512, .bf16⟩
  | .local _ .vmem, ⟨13, _⟩ => ⟨S1x512, .f32⟩
  | .local _ .vmem, ⟨14, _⟩ => ⟨S1x512, .bf16⟩
  | .local _ .vmem, ⟨15, _⟩ => ⟨S1x1, .f32⟩
  | .local _ .vmem, ⟨16, _⟩ => ⟨S512x1, .f32⟩
  | .local _ .vmem, ⟨17, _⟩ => ⟨S512x1, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_cst : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst_0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg15_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem15_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2080 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2080 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2080 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x2080 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

class Facts₀ : Prop where
  slices_S32768x2048_S32768x1024_0_0 : S32768x2048.Slices ![0, 0] S32768x1024
  bcast_S_S32768x1024 : S_.BroadcastsInDim S32768x1024 (![] : Fin 0 → Fin S32768x1024.rank)
  slices_S32768x2048_S32768x1024_0_1024 : S32768x2048.Slices ![0, 1024] S32768x1024
  concatenates_S32768x1024_S32768x1024_S32768x32_S32768x2080_d1 : Shape.Concatenates [S32768x1024, S32768x1024, S32768x32] S32768x2080 1
  shapeCasts_S2080_S1x2080 : S2080.ShapeCasts S1x2080
  shapeCasts_S512_S1x512 : S512.ShapeCasts S1x512
  shapeCasts_S1_S1x1 : S1.ShapeCasts S1x1
  bitsLt_bf16_f32 : FTy.bits .bf16 < FTy.bits .f32
  inb_S512x2080_S512x2080_0_0 : ∀ a, (![0, 0] : Fin 2 → Nat) a + S512x2080.size a ≤ S512x2080.size a
  h_S512x2080 : 0 < S512x2080.numel
  shapeCasts_S512x2080_S512x2080 : S512x2080.ShapeCasts S512x2080
  inb_S1x2080_S1x2080_0_0 : ∀ a, (![0, 0] : Fin 2 → Nat) a + S1x2080.size a ≤ S1x2080.size a
  h_S1x2080 : 0 < S1x2080.numel
  shapeCasts_S1x2080_S1x2080 : S1x2080.ShapeCasts S1x2080
  reduces_S512x2080_S512 : S512x2080.Reduces [1] S512
  shapeCasts_S512_S512x1 : S512.ShapeCasts S512x1
  broadcasts_S512x1_S512x2080 : S512x1.Broadcasts S512x2080
  broadcasts_S1x2080_S512x2080 : S1x2080.Broadcasts S512x2080
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  reduces_S512x512_S512 : S512x512.Reduces [1] S512
  broadcasts_S512x1_S512x512 : S512x1.Broadcasts S512x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  inb_S512x1_S512x1_0_0 : ∀ a, (![0, 0] : Fin 2 → Nat) a + S512x1.size a ≤ S512x1.size a
  h_S512x1 : 0 < S512x1.numel
  dot_S512x2080_S512x2080_S512x512_1_1_0_0_n_n_wf : DotDims.WF S512x2080 S512x2080 S512x512 [1] [1] [0] [0] [] []
  dot_S512x512_S512x512_S512x512_1_1_0_0_n_n_wf : DotDims.WF S512x512 S512x512 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2080.size a ≤ S32768x2080.size a
  hwx0_0 : ∀ i : grid0.Coords, EltTy.bits .f32 = 32 ∨ (Rect.block (s := S32768x2080) S512x2080.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2080.size a ≤ S1x2080.size a
  hwx0_1 : ∀ i : grid0.Coords, EltTy.bits .f32 = 32 ∨ (Rect.block (s := S1x2080) S1x2080.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2080.size a ≤ S1x2080.size a
  hwx0_2 : ∀ i : grid0.Coords, EltTy.bits .f32 = 32 ∨ (Rect.block (s := S1x2080) S1x2080.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x2080.size a ≤ S512x2080.size a
  hwx0_3 : ∀ i : grid0.Coords, EltTy.bits .bf16 = 32 ∨ (Rect.block (s := S512x2080) S512x2080.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S512x512.size a
  hwx0_7 : ∀ i : grid0.Coords, EltTy.bits .bf16 = 32 ∨ (Rect.block (s := S512x512) S512x512.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x512.size a
  hwx0_8 : ∀ i : grid0.Coords, EltTy.bits .f32 = 32 ∨ (Rect.block (s := S1x512) S1x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x512.size a ≤ S1x512.size a
  hwx0_9 : ∀ i : grid0.Coords, EltTy.bits .f32 = 32 ∨ (Rect.block (s := S1x512) S1x512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x512.size a ≤ S1x512.size a
  hwx0_10 : ∀ i : grid0.Coords, EltTy.bits .f32 = 32 ∨ (Rect.block (s := S1x512) S1x512.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S512x512.size a ≤ S512x512.size a
  hwx0_11 : ∀ i : grid0.Coords, EltTy.bits .bf16 = 32 ∨ (Rect.block (s := S512x512) S512x512.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x512.size a ≤ S1x512.size a
  hwx0_12 : ∀ i : grid0.Coords, EltTy.bits .f32 = 32 ∨ (Rect.block (s := S1x512) S1x512.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x512.size a ≤ S1x512.size a
  hwx0_13 : ∀ i : grid0.Coords, EltTy.bits .bf16 = 32 ∨ (Rect.block (s := S1x512) S1x512.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x1.size a ≤ S1x1.size a
  hwx0_14 : ∀ i : grid0.Coords, EltTy.bits .f32 = 32 ∨ (Rect.block (s := S1x1) S1x1.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S512x1.size a ≤ S32768x1.size a
  hwx0_15 : ∀ i : grid0.Coords, EltTy.bits .f32 = 32 ∨ (Rect.block (s := S32768x1) S512x1.size (cc0_transform_15 i) (hinb0_15 i)).WholeWords (EltTy.packing .f32)

variable [Facts₀]

def dot_S512x2080_S512x2080_S512x512_1_1_0_0_n_n : DotDims S512x2080 S512x2080 S512x512 where
  lhsContracting := [1]
  rhsContracting := [1]
  lhsNonContracting := [0]
  rhsNonContracting := [0]
  lhsBatch := []
  rhsBatch := []
  wf := dot_S512x2080_S512x2080_S512x512_1_1_0_0_n_n_wf
def dot_S512x512_S512x512_S512x512_1_1_0_0_n_n : DotDims S512x512 S512x512 S512x512 where
  lhsContracting := [1]
  rhsContracting := [1]
  lhsNonContracting := [0]
  rhsNonContracting := [0]
  lhsBatch := []
  rhsBatch := []
  wf := dot_S512x512_S512x512_S512x512_1_1_0_0_n_n_wf

abbrev win0_0 : Pipeline.Window sig grid0 :=
  Pipeline.Window.ofSpec (Memref.whole main_v6) S512x2080.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1x2080.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x2080.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S512x2080.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v18) S512x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v14) S1x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v11) S1x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v12) S1x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v19) S512x512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v15) S1x512.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v20) S1x512.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v16) S1x1.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v21) S512x1.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S32768x2048 : Shape := ⟨2, ![32768, 2048]⟩
abbrev S32768x32 : Shape := ⟨2, ![32768, 32]⟩
abbrev S2080 : Shape := ⟨1, ![2080]⟩
abbrev S512 : Shape := ⟨1, ![512]⟩
abbrev S512x2080 : Shape := ⟨2, ![512, 2080]⟩
abbrev S512x512 : Shape := ⟨2, ![512, 512]⟩
abbrev S1x512 : Shape := ⟨2, ![1, 512]⟩
abbrev S1 : Shape := ⟨1, ![1]⟩
abbrev S32768x1024 : Shape := ⟨2, ![32768, 1024]⟩
abbrev S_ : Shape := ⟨0, ![]⟩
abbrev S32768x2080 : Shape := ⟨2, ![32768, 2080]⟩
abbrev S32768 : Shape := ⟨1, ![32768]⟩
abbrev S32768x1 : Shape := ⟨2, ![32768, 1]⟩
abbrev S1x2080 : Shape := ⟨2, ![1, 2080]⟩
abbrev S2080x512 : Shape := ⟨2, ![2080, 512]⟩
abbrev S32768x512 : Shape := ⟨2, ![32768, 512]⟩
abbrev S512x1 : Shape := ⟨2, ![512, 1]⟩
abbrev S1x1 : Shape := ⟨2, ![1, 1]⟩

abbrev nBuf : Space → Nat
  | .hbm => 136
  | .vmem => 0
  | .smem => 0
  | _ => 0

abbrev hbmTy0_0 (i : Nat) : BufTy := match i % 128 with
  | 0 => ⟨S32768x2048, .f32⟩
  | 1 => ⟨S32768x32, .f32⟩
  | 2 => ⟨S2080, .f32⟩
  | 3 => ⟨S2080, .f32⟩
  | 4 => ⟨S512, .f32⟩
  | 5 => ⟨S512, .f32⟩
  | 6 => ⟨S512, .f32⟩
  | 7 => ⟨S512, .f32⟩
  | 8 => ⟨S512x2080, .f32⟩
  | 9 => ⟨S512, .f32⟩
  | 10 => ⟨S512x512, .f32⟩
  | 11 => ⟨S512, .f32⟩
  | 12 => ⟨S512x512, .f32⟩
  | 13 => ⟨S512, .f32⟩
  | 14 => ⟨S1x512, .f32⟩
  | 15 => ⟨S1, .f32⟩
  | 16 => ⟨S32768x1024, .f32⟩
  | 17 => ⟨S_, .f32⟩
  | 18 => ⟨S32768x1024, .f32⟩
  | 19 => ⟨S32768x1024, .f32⟩
  | 20 => ⟨S32768x1024, .f32⟩
  | 21 => ⟨S_, .f32⟩
  | 22 => ⟨S32768x1024, .f32⟩
  | 23 => ⟨S32768x1024, .f32⟩
  | 24 => ⟨S32768x2080, .f32⟩
  | 25 => ⟨S_, .f32⟩
  | 26 => ⟨S32768, .f32⟩
  | 27 => ⟨S32768x1, .f32⟩
  | 28 => ⟨S_, .f32⟩
  | 29 => ⟨S32768x1, .f32⟩
  | 30 => ⟨S32768x1, .f32⟩
  | 31 => ⟨S32768x2080, .f32⟩
  | 32 => ⟨S32768x2080, .f32⟩
  | 33 => ⟨S32768x2080, .f32⟩
  | 34 => ⟨S_, .f32⟩
  | 35 => ⟨S32768, .f32⟩
  | 36 => ⟨S32768x1, .f32⟩
  | 37 => ⟨S_, .f32⟩
  | 38 => ⟨S32768x1, .f32⟩
  | 39 => ⟨S32768x1, .f32⟩
  | 40 => ⟨S32768x2080, .f32⟩
  | 41 => ⟨S32768x2080, .f32⟩
  | 42 => ⟨S_, .f32⟩
  | 43 => ⟨S32768x1, .f32⟩
  | 44 => ⟨S32768x1, .f32⟩
  | 45 => ⟨S32768x1, .f32⟩
  | 46 => ⟨S32768x2080, .f32⟩
  | 47 => ⟨S32768x2080, .f32⟩
  | 48 => ⟨S1x2080, .f32⟩
  | 49 => ⟨S32768x2080, .f32⟩
  | 50 => ⟨S32768x2080, .f32⟩
  | 51 => ⟨S1x2080, .f32⟩
  | 52 => ⟨S32768x2080, .f32⟩
  | 53 => ⟨S32768x2080, .f32⟩
  | 54 => ⟨S2080x512, .f32⟩
  | 55 => ⟨S32768x512, .f32⟩
  | 56 => ⟨S1x512, .f32⟩
  | 57 => ⟨S32768x512, .f32⟩
  | 58 => ⟨S32768x512, .f32⟩
  | 59 => ⟨S32768x512, .f32⟩
  | 60 => ⟨S_, .f32⟩
  | 61 => ⟨S32768, .f32⟩
  | 62 => ⟨S32768x1, .f32⟩
  | 63 => ⟨S_, .f32⟩
  | 64 => ⟨S32768x1, .f32⟩
  | 65 => ⟨S32768x1, .f32⟩
  | 66 => ⟨S32768x512, .f32⟩
  | 67 => ⟨S32768x512, .f32⟩
  | 68 => ⟨S32768x512, .f32⟩
  | 69 => ⟨S_, .f32⟩
  | 70 => ⟨S32768, .f32⟩
  | 71 => ⟨S32768x1, .f32⟩
  | 72 => ⟨S_, .f32⟩
  | 73 => ⟨S32768x1, .f32⟩
  | 74 => ⟨S32768x1, .f32⟩
  | 75 => ⟨S32768x512, .f32⟩
  | 76 => ⟨S32768x512, .f32⟩
  | 77 => ⟨S_, .f32⟩
  | 78 => ⟨S32768x1, .f32⟩
  | 79 => ⟨S32768x1, .f32⟩
  | 80 => ⟨S32768x1, .f32⟩
  | 81 => ⟨S32768x512, .f32⟩
  | 82 => ⟨S32768x512, .f32⟩
  | 83 => ⟨S1x512, .f32⟩
  | 84 => ⟨S32768x512, .f32⟩
  | 85 => ⟨S32768x512, .f32⟩
  | 86 => ⟨S1x512, .f32⟩
  | 87 => ⟨S32768x512, .f32⟩
  | 88 => ⟨S32768x512, .f32⟩
  | 89 => ⟨S512x512, .f32⟩
  | 90 => ⟨S32768x512, .f32⟩
  | 91 => ⟨S1x512, .f32⟩
  | 92 => ⟨S32768x512, .f32⟩
  | 93 => ⟨S32768x512, .f32⟩
  | 94 => ⟨S32768x512, .f32⟩
  | 95 => ⟨S_, .f32⟩
  | 96 => ⟨S32768, .f32⟩
  | 97 => ⟨S32768x1, .f32⟩
  | 98 => ⟨S_, .f32⟩
  | 99 => ⟨S32768x1, .f32⟩
  | 100 => ⟨S32768x1, .f32⟩
  | 101 => ⟨S32768x512, .f32⟩
  | 102 => ⟨S32768x512, .f32⟩
  | 103 => ⟨S32768x512, .f32⟩
  | 104 => ⟨S_, .f32⟩
  | 105 => ⟨S32768, .f32⟩
  | 106 => ⟨S32768x1, .f32⟩
  | 107 => ⟨S_, .f32⟩
  | 108 => ⟨S32768x1, .f32⟩
  | 109 => ⟨S32768x1, .f32⟩
  | 110 => ⟨S32768x512, .f32⟩
  | 111 => ⟨S32768x512, .f32⟩
  | 112 => ⟨S_, .f32⟩
  | 113 => ⟨S32768x1, .f32⟩
  | 114 => ⟨S32768x1, .f32⟩
  | 115 => ⟨S32768x1, .f32⟩
  | 116 => ⟨S32768x512, .f32⟩
  | 117 => ⟨S32768x512, .f32⟩
  | 118 => ⟨S1x512, .f32⟩
  | 119 => ⟨S32768x512, .f32⟩
  | 120 => ⟨S32768x512, .f32⟩
  | 121 => ⟨S1x512, .f32⟩
  | 122 => ⟨S32768x512, .f32⟩
  | 123 => ⟨S32768x512, .f32⟩
  | 124 => ⟨S512x512, .f32⟩
  | 125 => ⟨S32768x512, .f32⟩
  | 126 => ⟨S1x512, .f32⟩
  | 127 => ⟨S32768x512, .f32⟩
  | _ => ⟨S32768x2048, .f32⟩

abbrev hbmTy0_1 (i : Nat) : BufTy := match i % 128 with
  | 0 => ⟨S32768x512, .f32⟩
  | 1 => ⟨S32768x512, .f32⟩
  | 2 => ⟨S512x1, .f32⟩
  | 3 => ⟨S32768x1, .f32⟩
  | 4 => ⟨S1x1, .f32⟩
  | 5 => ⟨S32768x1, .f32⟩
  | 6 => ⟨S32768x1, .f32⟩
  | 7 => ⟨S32768x1, .f32⟩
  | _ => ⟨S32768x2048, .f32⟩

abbrev hbmTy (i : Nat) : BufTy := match i / 128 with
  | 0 => hbmTy0_0 i
  | 1 => hbmTy0_1 i
  | _ => ⟨S32768x2048, .f32⟩

abbrev bufTy : (tb : Table) → Fin (tcTables nBuf tb) → BufTy
  | .hbm, ⟨i, _⟩ => hbmTy i
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_cst : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst_0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst_1 : Ref sig .tc := ⟨.hbm, 25, rfl⟩
abbrev main_v7 : Ref sig .tc := ⟨.hbm, 26, rfl⟩
abbrev main_v8 : Ref sig .tc := ⟨.hbm, 27, rfl⟩
abbrev main_cst_2 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_3 : Ref sig .tc := ⟨.hbm, 34, rfl⟩
abbrev main_v14 : Ref sig .tc := ⟨.hbm, 35, rfl⟩
abbrev main_v15 : Ref sig .tc := ⟨.hbm, 36, rfl⟩
abbrev main_cst_4 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_5 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_6 : Ref sig .tc := ⟨.hbm, 60, rfl⟩
abbrev main_v37 : Ref sig .tc := ⟨.hbm, 61, rfl⟩
abbrev main_v38 : Ref sig .tc := ⟨.hbm, 62, rfl⟩
abbrev main_cst_7 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_8 : Ref sig .tc := ⟨.hbm, 69, rfl⟩
abbrev main_v44 : Ref sig .tc := ⟨.hbm, 70, rfl⟩
abbrev main_v45 : Ref sig .tc := ⟨.hbm, 71, rfl⟩
abbrev main_cst_9 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_10 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_11 : Ref sig .tc := ⟨.hbm, 95, rfl⟩
abbrev main_v67 : Ref sig .tc := ⟨.hbm, 96, rfl⟩
abbrev main_v68 : Ref sig .tc := ⟨.hbm, 97, rfl⟩
abbrev main_cst_12 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_13 : Ref sig .tc := ⟨.hbm, 104, rfl⟩
abbrev main_v74 : Ref sig .tc := ⟨.hbm, 105, rfl⟩
abbrev main_v75 : Ref sig .tc := ⟨.hbm, 106, rfl⟩
abbrev main_cst_14 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_cst_15 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩

abbrev nD : Nat := 1
abbrev τ : Topo := Topo.v7x

variable {F : FTy → Type} [FloatOps F]

class Facts₀ : Prop where
  slices_S32768x2048_S32768x1024_0_0 : S32768x2048.Slices ![0, 0] S32768x1024
  bcast_S_S32768x1024 : S_.BroadcastsInDim S32768x1024 (![] : Fin 0 → Fin S32768x1024.rank)
  slices_S32768x2048_S32768x1024_0_1024 : S32768x2048.Slices ![0, 1024] S32768x1024
  concatenates_S32768x1024_S32768x1024_S32768x32_S32768x2080_d1 : Shape.Concatenates [S32768x1024, S32768x1024, S32768x32] S32768x2080 1
  reducesTo_S32768x2080_S32768_d1 : S32768x2080.ReducesTo [1] S32768
  h_S_ : 0 < S_.numel
  bcast_S32768_S32768x1_0 : S32768.BroadcastsInDim S32768x1 (![0] : Fin 1 → Fin S32768x1.rank)
  bcast_S_S32768x1 : S_.BroadcastsInDim S32768x1 (![] : Fin 0 → Fin S32768x1.rank)
  bcast_S32768x1_S32768x2080_0_1 : S32768x1.BroadcastsInDim S32768x2080 (![0, 1] : Fin 2 → Fin S32768x2080.rank)
  bcast_S2080_S1x2080_1 : S2080.BroadcastsInDim S1x2080 (![1] : Fin 1 → Fin S1x2080.rank)
  bcast_S1x2080_S32768x2080_0_1 : S1x2080.BroadcastsInDim S32768x2080 (![0, 1] : Fin 2 → Fin S32768x2080.rank)
  transposes_S512x2080_S2080x512_1_0 : S512x2080.Transposes [1, 0] S2080x512
  bcast_S512_S1x512_1 : S512.BroadcastsInDim S1x512 (![1] : Fin 1 → Fin S1x512.rank)
  bcast_S1x512_S32768x512_0_1 : S1x512.BroadcastsInDim S32768x512 (![0, 1] : Fin 2 → Fin S32768x512.rank)
  reducesTo_S32768x512_S32768_d1 : S32768x512.ReducesTo [1] S32768
  bcast_S32768x1_S32768x512_0_1 : S32768x1.BroadcastsInDim S32768x512 (![0, 1] : Fin 2 → Fin S32768x512.rank)
  transposes_S512x512_S512x512_1_0 : S512x512.Transposes [1, 0] S512x512
  transposes_S1x512_S512x1_1_0 : S1x512.Transposes [1, 0] S512x1
  bcast_S1_S1x1_1 : S1.BroadcastsInDim S1x1 (![1] : Fin 1 → Fin S1x1.rank)
  bcast_S1x1_S32768x1_0_1 : S1x1.BroadcastsInDim S32768x1 (![0, 1] : Fin 2 → Fin S32768x1.rank)
  dot_S32768x2080_S2080x512_S32768x512_1_0_0_1_n_n_wf : DotDims.WF S32768x2080 S2080x512 S32768x512 [1] [0] [0] [1] [] []
  dot_S32768x512_S512x512_S32768x512_1_0_0_1_n_n_wf : DotDims.WF S32768x512 S512x512 S32768x512 [1] [0] [0] [1] [] []
  dot_S32768x512_S512x1_S32768x1_1_0_0_1_n_n_wf : DotDims.WF S32768x512 S512x1 S32768x1 [1] [0] [0] [1] [] []

variable [Facts₀]

def dot_S32768x2080_S2080x512_S32768x512_1_0_0_1_n_n : DotDims S32768x2080 S2080x512 S32768x512 where
  lhsContracting := [1]
  rhsContracting := [0]
  lhsNonContracting := [0]
  rhsNonContracting := [1]
  lhsBatch := []
  rhsBatch := []
  wf := dot_S32768x2080_S2080x512_S32768x512_1_0_0_1_n_n_wf
def dot_S32768x512_S512x512_S32768x512_1_0_0_1_n_n : DotDims S32768x512 S512x512 S32768x512 where
  lhsContracting := [1]
  rhsContracting := [0]
  lhsNonContracting := [0]
  rhsNonContracting := [1]
  lhsBatch := []
  rhsBatch := []
  wf := dot_S32768x512_S512x512_S32768x512_1_0_0_1_n_n_wf
def dot_S32768x512_S512x1_S32768x1_1_0_0_1_n_n : DotDims S32768x512 S512x1 S32768x1 where
  lhsContracting := [1]
  rhsContracting := [0]
  lhsNonContracting := [0]
  rhsNonContracting := [1]
  lhsBatch := []
  rhsBatch := []
  wf := dot_S32768x512_S512x1_S32768x1_1_0_0_1_n_n_wf

class Facts : Prop extends Facts₀ where

variable [Facts]
-- ==== Proof.KBlock.lean ====
/-
  What one grid point's body stores, as one function of the fifteen blocks it loads: the row block of the
  features, then for each of the three normalise-and-map stages its scale, shift, weight and bias, then
  the last weight row and bias. The store's value is the composition of the body's pure pieces in the
  order the body computes them.
-/
import proofs.«150316_j43980465111579_2_alg».proof.Proof.Gen.Kernel.Skeleton

noncomputable section

namespace Cert.Kernel.Hand

open Idealize.ShloMosaic Cert.Kernel Cert.Kernel.Gen

variable {F : FTy → Type} [FloatOps F]

/-- The first hidden block `tanh (normalise(x0) · x3ᵀ + x4)`, 512 rows at once. -/
def stage1 (x0 : Vec F S512x2080 .f32) (x1 x2 : Vec F S1x2080 .f32) (x3 : Vec F S512x2080 .bf16) (x4 : Vec F S1x512 .f32) :
    FVec F S512x512 .f32 :=
  k0_pay2 x0 x1 x2 x3 x4

/-- The second hidden block, from the first. -/
def stage2 (h1 : FVec F S512x512 .f32) (x5 x6 : Vec F S1x512 .f32) (x7 : Vec F S512x512 .bf16) (x8 : Vec F S1x512 .f32) :
    FVec F S512x512 .f32 :=
  k0_pay4 h1 (k0_pay3 x5) x6 x7 x8

/-- What the body stores into the output block, from the blocks it loads. -/
def blockOut (x0 : Vec F S512x2080 .f32) (x1 x2 : Vec F S1x2080 .f32) (x3 : Vec F S512x2080 .bf16) (x4 x5 x6 : Vec F S1x512 .f32)
    (x7 : Vec F S512x512 .bf16) (x8 x9 x10 : Vec F S1x512 .f32) (x11 : Vec F S512x512 .bf16) (x12 : Vec F S1x512 .f32)
    (x13 : Vec F S1x512 .bf16) (x14 : Vec F S1x1 .f32) : FVec F S512x1 .f32 :=
  k0_pay1 (stage2 (stage1 x0 x1 x2 x3 x4) x5 x6 x7 x8) (k0_pay5 x9) (k0_pay6 x10)
    (k0_pay7 (stage1 x0 x1 x2 x3 x4) (k0_pay3 x5) x6 x7 x8) (k0_pay8 (stage1 x0 x1 x2 x3 x4) (k0_pay3 x5) x6 x7 x8)
    x11 x12 x13 x14

end Cert.Kernel.Hand

end
-- ==== Proof.KFrame.lean ====
/-
  The run of the program up to and through its one pipelined region, and the frame it leaves.

  Before the region the host computes the feature array (two halves of the first input divided by constants,
  joined with the second input along the feature axis) and re-lays the parameter vectors as one-row arrays;
  none of these operations writes an argument array. The region visits 64 grid points; at point `t` the body
  loads the fifteen input blocks (rows 512·t … 512·t+511 of the feature array, and the resident parameter
  arrays whole), and overwrites its whole output block with `blockOut` of what it loaded. So after the body
  every input's staging buffer still holds its block, the output's holds `outBlock`, and the pipeline writes
  that block back at every point. The argument arrays are staged by no window and end as they were launched.
-/
import proofs.«150316_j43980465111579_2_alg».proof.Proof.Gen.Kernel.Launch
import proofs.«150316_j43980465111579_2_alg».proof.Proof.Gen.Kernel.Skeleton
import proofs.«150316_j43980465111579_2_alg».proof.Proof.Gen.Kernel.Points
import proofs.«150316_j43980465111579_2_alg».proof.Proof.KBlock
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- Core `c`'s buffers when the region is entered: the launch memory after the host operations. -/
abbrev V (c : Dev nD) (b : Ref sig .tc) : Buf (Elt F) ((c : Thread nD τ).loc b) := StableHlo.after hostOps0 (fun b => m (c, b)) b

/-- No host operation allocates. -/
theorem hostOps0_fresh : (hostOps0 : List (HloOp τ sig (Elt F))).Forall fun op => op.fresh = ∅ := by
  simp only [List.Forall]; repeat' constructor

/-- The program is its host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 15: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, whenever the
    body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, whenever the
    body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, whenever the
    body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, whenever the
    body leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, whenever the
    body leaves the block in place. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, whenever the
    body leaves the block in place. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, whenever the
    body leaves the block in place. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, whenever the
    body leaves the block in place. -/
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, whenever the
    body leaves the block in place. -/
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, whenever the
    body leaves the block in place. -/
theorem before9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, whenever the
    body leaves the block in place. -/
theorem before10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, whenever the
    body leaves the block in place. -/
theorem before11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, whenever the
    body leaves the block in place. -/
theorem before12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, whenever the
    body leaves the block in place. -/
theorem before13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not, whenever the
    body leaves the block in place. -/
theorem before14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)

/-! ## The frame from a run of the region -/

/-- A run whose post says every unstaged buffer ends as the region found it gives the frame: no window stages an
    argument array, and the region finds each as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c)⟩) h

/-! ## The body's accesses: every load and the store take a whole buffer -/

abbrev whole_S512x2080 : Rect S512x2080 := Rect.unit (s := S512x2080) ![0, 0] S512x2080.size inb_S512x2080_S512x2080_0_0
abbrev whole_S1x2080 : Rect S1x2080 := Rect.unit (s := S1x2080) ![0, 0] S1x2080.size inb_S1x2080_S1x2080_0_0
abbrev whole_S1x512 : Rect S1x512 := Rect.unit (s := S1x512) ![0, 0] S1x512.size inb_S1x512_S1x512_0_0
abbrev whole_S512x512 : Rect S512x512 := Rect.unit (s := S512x512) ![0, 0] S512x512.size inb_S512x512_S512x512_0_0
abbrev whole_S1x1 : Rect S1x1 := Rect.unit (s := S1x1) ![0, 0] S1x1.size inb_S1x1_S1x1_0_0
abbrev whole_S512x1 : Rect S512x1 := Rect.unit (s := S512x1) ![0, 0] S512x1.size inb_S512x1_S512x1_0_0

/-- The output block's buffer after the body, from the input blocks: the one store, of `blockOut` of the loads. -/
def outBlock (x0 : Vec F S512x2080 .f32) (x1 : Vec F S1x2080 .f32) (x2 : Vec F S1x2080 .f32) (x3 : Vec F S512x2080 .bf16) (x4 : Vec F S1x512 .f32) (x5 : Vec F S1x512 .f32) (x6 : Vec F S1x512 .f32) (x7 : Vec F S512x512 .bf16) (x8 : Vec F S1x512 .f32) (x9 : Vec F S1x512 .f32) (x10 : Vec F S1x512 .f32) (x11 : Vec F S512x512 .bf16) (x12 : Vec F S1x512 .f32) (x13 : Vec F S1x512 .bf16) (x14 : Vec F S1x1 .f32) : Vec F S512x1 .f32 :=
  View.canon [⟨whole_S512x1, blockOut (View.ld x0 whole_S512x2080) (View.ld x1 whole_S1x2080) (View.ld x2 whole_S1x2080) (View.ld x3 whole_S512x2080) (View.ld x4 whole_S1x512) (View.ld x5 whole_S1x512) (View.ld x6 whole_S1x512) (View.ld x7 whole_S512x512) (View.ld x8 whole_S1x512) (View.ld x9 whole_S1x512) (View.ld x10 whole_S1x512) (View.ld x11 whole_S512x512) (View.ld x12 whole_S1x512) (View.ld x13 whole_S1x512) (View.ld x14 whole_S1x1)⟩]

/-- The store covers the buffer. -/
theorem cover_out (p0 : Vec F S512x1 .f32) (y : S512x1.Idx) :
    ∃ pc ∈ ([⟨whole_S512x1, p0⟩] : List (View.Piece (Elt F) S512x1 .f32)), y ∈ pc.1.set :=
  View.cover_of_tiled [⟨whole_S512x1, p0⟩] S512x1.size (by rfl) y

/-! ## The body's triple -/

set_option maxHeartbeats 4000000 in
/-- The body, on whole staging memrefs holding `x0 … x14` (the output's holding anything), runs to the continuation
    with the inputs' as they were and the output's at `outBlock`. -/
theorem sound_kernel (c : Dev nD) (E : Set ℕ) (i : grid0.Coords) (a0 : Memref sig .tc .vmem S512x2080 .f32) (ha0 : a0.IsWhole) (a1 : Memref sig .tc .vmem S1x2080 .f32) (ha1 : a1.IsWhole) (a2 : Memref sig .tc .vmem S1x2080 .f32) (ha2 : a2.IsWhole) (a3 : Memref sig .tc .vmem S512x2080 .bf16) (ha3 : a3.IsWhole) (a4 : Memref sig .tc .vmem S1x512 .f32) (ha4 : a4.IsWhole) (a5 : Memref sig .tc .vmem S1x512 .f32) (ha5 : a5.IsWhole) (a6 : Memref sig .tc .vmem S1x512 .f32) (ha6 : a6.IsWhole) (a7 : Memref sig .tc .vmem S512x512 .bf16) (ha7 : a7.IsWhole) (a8 : Memref sig .tc .vmem S1x512 .f32) (ha8 : a8.IsWhole) (a9 : Memref sig .tc .vmem S1x512 .f32) (ha9 : a9.IsWhole) (a10 : Memref sig .tc .vmem S1x512 .f32) (ha10 : a10.IsWhole) (a11 : Memref sig .tc .vmem S512x512 .bf16) (ha11 : a11.IsWhole) (a12 : Memref sig .tc .vmem S1x512 .f32) (ha12 : a12.IsWhole) (a13 : Memref sig .tc .vmem S1x512 .bf16) (ha13 : a13.IsWhole) (a14 : Memref sig .tc .vmem S1x1 .f32) (ha14 : a14.IsWhole) (a15 : Memref sig .tc .vmem S512x1 .f32) (ha15 : a15.IsWhole)
    (x0 : Vec F S512x2080 .f32) (x1 : Vec F S1x2080 .f32) (x2 : Vec F S1x2080 .f32) (x3 : Vec F S512x2080 .bf16) (x4 : Vec F S1x512 .f32) (x5 : Vec F S1x512 .f32) (x6 : Vec F S1x512 .f32) (x7 : Vec F S512x512 .bf16) (x8 : Vec F S1x512 .f32) (x9 : Vec F S1x512 .f32) (x10 : Vec F S1x512 .f32) (x11 : Vec F S512x512 .bf16) (x12 : Vec F S1x512 .f32) (x13 : Vec F S1x512 .bf16) (x14 : Vec F S1x1 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ owns (c : Thread nD τ) a14 fullShare x14 ∗ (∃ d, owns (c : Thread nD τ) a15 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ owns (c : Thread nD τ) a14 fullShare x14 ∗ owns (c : Thread nD τ) a15 fullShare (outBlock x0 x1 x2 x3 x4 x5 x6 x7 x8 x9 x10 x11 x12 x13 x14)) -∗ K ⟨⟩))
      ⊢ wp frame (wpE (defs₀ (F := F)) Variants.none c none) E (cc0__critic_kernel i a0 ha0 a1 ha1 a2 ha2 a3 ha3 a4 ha4 a5 ha5 a6 ha6 a7 ha7 a8 ha8 a9 ha9 a10 ha10 a11 ha11 a12 ha12 a13 ha13 a14 ha14 a15 ha15) K := by
  simp only [cc0__critic_kernel_eq_skeleton]; unfold cc0__critic_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, Hk⟩
  subst hf0 hf1 hf2 hf3 hf4 hf5 hf6 hf7 hf8 hf9 hf10 hf11 hf12 hf13 hf14
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  iexists _; isplitr
  swap; · iexact H15
  ipureintro
  exact View.read_writes_eq_canon _ _ _ (cover_out _)

/-! ## The pipeline's proof data -/

/-- On core `c`: the arrays as the region finds them; after the body at point `t` each input's buffer at its block and
    the output's at `outBlock` of the input blocks; nothing owed, full shares, the untouched rest as invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => outBlock (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    | ⟨_ + 16, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = iblk m c 14 t := by dsimp only [dats]
theorem after15 (c : Dev nD) (t : Fin cfg0.N) : (dats m 0 c).after 15 t = outBlock (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d
theorem before9 (c : Dev nD) (t : Fin cfg0.N) (d) : (dats m 0 c).before 9 t d = iblk m c 9 t :=
  before9_of m (dats m 0 c) (A_eq m c 9) (after9 m c) t d
theorem before10 (c : Dev nD) (t : Fin cfg0.N) (d) : (dats m 0 c).before 10 t d = iblk m c 10 t :=
  before10_of m (dats m 0 c) (A_eq m c 10) (after10 m c) t d
theorem before11 (c : Dev nD) (t : Fin cfg0.N) (d) : (dats m 0 c).before 11 t d = iblk m c 11 t :=
  before11_of m (dats m 0 c) (A_eq m c 11) (after11 m c) t d
theorem before12 (c : Dev nD) (t : Fin cfg0.N) (d) : (dats m 0 c).before 12 t d = iblk m c 12 t :=
  before12_of m (dats m 0 c) (A_eq m c 12) (after12 m c) t d
theorem before13 (c : Dev nD) (t : Fin cfg0.N) (d) : (dats m 0 c).before 13 t d = iblk m c 13 t :=
  before13_of m (dats m 0 c) (A_eq m c 13) (after13 m c) t d
theorem before14 (c : Dev nD) (t : Fin cfg0.N) (d) : (dats m 0 c).before 14 t d = iblk m c 14 t :=
  before14_of m (dats m 0 c) (A_eq m c 14) (after14 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13, before14]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13, after14, after15]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (sound_kernel c Set.univ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, and every final state has each window's array at what the
    proof data says was written back, and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end, faults nowhere and leaves its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  frame_of m ρ (dats m) (run_main m ρ)

end Cert.Kernel.Hand

end
-- ==== Proof.KIBlock.lean ====
/-
  What one grid point's body stores, as one function of the fifteen blocks it loads: the row block of the
  features, then for each of the three normalise-and-map stages its scale, shift, weight and bias, then
  the last weight row and bias. The store's value is the composition of the body's pure pieces in the
  order the body computes them.
-/
import proofs.«150316_j43980465111579_2_alg».proof.Proof.Gen.KernelIdeal.Skeleton

noncomputable section

namespace Cert.KernelIdeal.Hand

open Idealize.ShloMosaic Cert.KernelIdeal Cert.KernelIdeal.Gen

variable {F : FTy → Type} [FloatOps F]

/-- The first hidden block `tanh (normalise(x0) · x3ᵀ + x4)`, 512 rows at once. -/
def stage1 (x0 : Vec F S512x2080 .f32) (x1 x2 : Vec F S1x2080 .f32) (x3 : Vec F S512x2080 .bf16) (x4 : Vec F S1x512 .f32) :
    FVec F S512x512 .f32 :=
  k0_pay2 x0 x1 x2 x3 x4

/-- The second hidden block, from the first. -/
def stage2 (h1 : FVec F S512x512 .f32) (x5 x6 : Vec F S1x512 .f32) (x7 : Vec F S512x512 .bf16) (x8 : Vec F S1x512 .f32) :
    FVec F S512x512 .f32 :=
  k0_pay4 h1 (k0_pay3 x5) x6 x7 x8

/-- What the body stores into the output block, from the blocks it loads. -/
def blockOut (x0 : Vec F S512x2080 .f32) (x1 x2 : Vec F S1x2080 .f32) (x3 : Vec F S512x2080 .bf16) (x4 x5 x6 : Vec F S1x512 .f32)
    (x7 : Vec F S512x512 .bf16) (x8 x9 x10 : Vec F S1x512 .f32) (x11 : Vec F S512x512 .bf16) (x12 : Vec F S1x512 .f32)
    (x13 : Vec F S1x512 .bf16) (x14 : Vec F S1x1 .f32) : FVec F S512x1 .f32 :=
  k0_pay1 (stage2 (stage1 x0 x1 x2 x3 x4) x5 x6 x7 x8) (k0_pay5 x9) (k0_pay6 x10)
    (k0_pay7 (stage1 x0 x1 x2 x3 x4) (k0_pay3 x5) x6 x7 x8) (k0_pay8 (stage1 x0 x1 x2 x3 x4) (k0_pay3 x5) x6 x7 x8)
    x11 x12 x13 x14

end Cert.KernelIdeal.Hand

end
-- ==== Proof.KIFrame.lean ====
/-
  The run of the program up to and through its one pipelined region, and the frame it leaves.

  Before the region the host computes the feature array (two halves of the first input divided by constants,
  joined with the second input along the feature axis) and re-lays the parameter vectors as one-row arrays;
  none of these operations writes an argument array. The region visits 64 grid points; at point `t` the body
  loads the fifteen input blocks (rows 512·t … 512·t+511 of the feature array, and the resident parameter
  arrays whole), and overwrites its whole output block with `blockOut` of what it loaded. So after the body
  every input's staging buffer still holds its block, the output's holds `outBlock`, and the pipeline writes
  that block back at every point. The argument arrays are staged by no window and end as they were launched.
-/
import proofs.«150316_j43980465111579_2_alg».proof.Proof.Gen.KernelIdeal.Launch
import proofs.«150316_j43980465111579_2_alg».proof.Proof.Gen.KernelIdeal.Skeleton
import proofs.«150316_j43980465111579_2_alg».proof.Proof.Gen.KernelIdeal.Points
import proofs.«150316_j43980465111579_2_alg».proof.Proof.KIBlock
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- Core `c`'s buffers when the region is entered: the launch memory after the host operations. -/
abbrev V (c : Dev nD) (b : Ref sig .tc) : Buf (Elt F) ((c : Thread nD τ).loc b) := StableHlo.after hostOps0 (fun b => m (c, b)) b

/-- No host operation allocates. -/
theorem hostOps0_fresh : (hostOps0 : List (HloOp τ sig (Elt F))).Forall fun op => op.fresh = ∅ := by
  simp only [List.Forall]; repeat' constructor

/-- The program is its host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 15: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, whenever the
    body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, whenever the
    body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, whenever the
    body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, whenever the
    body leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, whenever the
    body leaves the block in place. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, whenever the
    body leaves the block in place. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, whenever the
    body leaves the block in place. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, whenever the
    body leaves the block in place. -/
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, whenever the
    body leaves the block in place. -/
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, whenever the
    body leaves the block in place. -/
theorem before9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, whenever the
    body leaves the block in place. -/
theorem before10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, whenever the
    body leaves the block in place. -/
theorem before11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, whenever the
    body leaves the block in place. -/
theorem before12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, whenever the
    body leaves the block in place. -/
theorem before13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not, whenever the
    body leaves the block in place. -/
theorem before14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)

/-! ## The frame from a run of the region -/

/-- A run whose post says every unstaged buffer ends as the region found it gives the frame: no window stages an
    argument array, and the region finds each as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c)⟩) h

/-! ## The body's accesses: every load and the store take a whole buffer -/

abbrev whole_S512x2080 : Rect S512x2080 := Rect.unit (s := S512x2080) ![0, 0] S512x2080.size inb_S512x2080_S512x2080_0_0
abbrev whole_S1x2080 : Rect S1x2080 := Rect.unit (s := S1x2080) ![0, 0] S1x2080.size inb_S1x2080_S1x2080_0_0
abbrev whole_S1x512 : Rect S1x512 := Rect.unit (s := S1x512) ![0, 0] S1x512.size inb_S1x512_S1x512_0_0
abbrev whole_S512x512 : Rect S512x512 := Rect.unit (s := S512x512) ![0, 0] S512x512.size inb_S512x512_S512x512_0_0
abbrev whole_S1x1 : Rect S1x1 := Rect.unit (s := S1x1) ![0, 0] S1x1.size inb_S1x1_S1x1_0_0
abbrev whole_S512x1 : Rect S512x1 := Rect.unit (s := S512x1) ![0, 0] S512x1.size inb_S512x1_S512x1_0_0

/-- The output block's buffer after the body, from the input blocks: the one store, of `blockOut` of the loads. -/
def outBlock (x0 : Vec F S512x2080 .f32) (x1 : Vec F S1x2080 .f32) (x2 : Vec F S1x2080 .f32) (x3 : Vec F S512x2080 .bf16) (x4 : Vec F S1x512 .f32) (x5 : Vec F S1x512 .f32) (x6 : Vec F S1x512 .f32) (x7 : Vec F S512x512 .bf16) (x8 : Vec F S1x512 .f32) (x9 : Vec F S1x512 .f32) (x10 : Vec F S1x512 .f32) (x11 : Vec F S512x512 .bf16) (x12 : Vec F S1x512 .f32) (x13 : Vec F S1x512 .bf16) (x14 : Vec F S1x1 .f32) : Vec F S512x1 .f32 :=
  View.canon [⟨whole_S512x1, blockOut (View.ld x0 whole_S512x2080) (View.ld x1 whole_S1x2080) (View.ld x2 whole_S1x2080) (View.ld x3 whole_S512x2080) (View.ld x4 whole_S1x512) (View.ld x5 whole_S1x512) (View.ld x6 whole_S1x512) (View.ld x7 whole_S512x512) (View.ld x8 whole_S1x512) (View.ld x9 whole_S1x512) (View.ld x10 whole_S1x512) (View.ld x11 whole_S512x512) (View.ld x12 whole_S1x512) (View.ld x13 whole_S1x512) (View.ld x14 whole_S1x1)⟩]

/-- The store covers the buffer. -/
theorem cover_out (p0 : Vec F S512x1 .f32) (y : S512x1.Idx) :
    ∃ pc ∈ ([⟨whole_S512x1, p0⟩] : List (View.Piece (Elt F) S512x1 .f32)), y ∈ pc.1.set :=
  View.cover_of_tiled [⟨whole_S512x1, p0⟩] S512x1.size (by rfl) y

/-! ## The body's triple -/

set_option maxHeartbeats 4000000 in
/-- The body, on whole staging memrefs holding `x0 … x14` (the output's holding anything), runs to the continuation
    with the inputs' as they were and the output's at `outBlock`. -/
theorem sound_kernel (c : Dev nD) (E : Set ℕ) (i : grid0.Coords) (a0 : Memref sig .tc .vmem S512x2080 .f32) (ha0 : a0.IsWhole) (a1 : Memref sig .tc .vmem S1x2080 .f32) (ha1 : a1.IsWhole) (a2 : Memref sig .tc .vmem S1x2080 .f32) (ha2 : a2.IsWhole) (a3 : Memref sig .tc .vmem S512x2080 .bf16) (ha3 : a3.IsWhole) (a4 : Memref sig .tc .vmem S1x512 .f32) (ha4 : a4.IsWhole) (a5 : Memref sig .tc .vmem S1x512 .f32) (ha5 : a5.IsWhole) (a6 : Memref sig .tc .vmem S1x512 .f32) (ha6 : a6.IsWhole) (a7 : Memref sig .tc .vmem S512x512 .bf16) (ha7 : a7.IsWhole) (a8 : Memref sig .tc .vmem S1x512 .f32) (ha8 : a8.IsWhole) (a9 : Memref sig .tc .vmem S1x512 .f32) (ha9 : a9.IsWhole) (a10 : Memref sig .tc .vmem S1x512 .f32) (ha10 : a10.IsWhole) (a11 : Memref sig .tc .vmem S512x512 .bf16) (ha11 : a11.IsWhole) (a12 : Memref sig .tc .vmem S1x512 .f32) (ha12 : a12.IsWhole) (a13 : Memref sig .tc .vmem S1x512 .bf16) (ha13 : a13.IsWhole) (a14 : Memref sig .tc .vmem S1x1 .f32) (ha14 : a14.IsWhole) (a15 : Memref sig .tc .vmem S512x1 .f32) (ha15 : a15.IsWhole)
    (x0 : Vec F S512x2080 .f32) (x1 : Vec F S1x2080 .f32) (x2 : Vec F S1x2080 .f32) (x3 : Vec F S512x2080 .bf16) (x4 : Vec F S1x512 .f32) (x5 : Vec F S1x512 .f32) (x6 : Vec F S1x512 .f32) (x7 : Vec F S512x512 .bf16) (x8 : Vec F S1x512 .f32) (x9 : Vec F S1x512 .f32) (x10 : Vec F S1x512 .f32) (x11 : Vec F S512x512 .bf16) (x12 : Vec F S1x512 .f32) (x13 : Vec F S1x512 .bf16) (x14 : Vec F S1x1 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ owns (c : Thread nD τ) a14 fullShare x14 ∗ (∃ d, owns (c : Thread nD τ) a15 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ owns (c : Thread nD τ) a14 fullShare x14 ∗ owns (c : Thread nD τ) a15 fullShare (outBlock x0 x1 x2 x3 x4 x5 x6 x7 x8 x9 x10 x11 x12 x13 x14)) -∗ K ⟨⟩))
      ⊢ wp frame (wpE (defs₀ (F := F)) Variants.none c none) E (cc0__critic_kernel i a0 ha0 a1 ha1 a2 ha2 a3 ha3 a4 ha4 a5 ha5 a6 ha6 a7 ha7 a8 ha8 a9 ha9 a10 ha10 a11 ha11 a12 ha12 a13 ha13 a14 ha14 a15 ha15) K := by
  simp only [cc0__critic_kernel_eq_skeleton]; unfold cc0__critic_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, Hk⟩
  subst hf0 hf1 hf2 hf3 hf4 hf5 hf6 hf7 hf8 hf9 hf10 hf11 hf12 hf13 hf14
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  iexists _; isplitr
  swap; · iexact H15
  ipureintro
  exact View.read_writes_eq_canon _ _ _ (cover_out _)

/-! ## The pipeline's proof data -/

/-- On core `c`: the arrays as the region finds them; after the body at point `t` each input's buffer at its block and
    the output's at `outBlock` of the input blocks; nothing owed, full shares, the untouched rest as invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => outBlock (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    | ⟨_ + 16, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = iblk m c 14 t := by dsimp only [dats]
theorem after15 (c : Dev nD) (t : Fin cfg0.N) : (dats m 0 c).after 15 t = outBlock (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d
theorem before9 (c : Dev nD) (t : Fin cfg0.N) (d) : (dats m 0 c).before 9 t d = iblk m c 9 t :=
  before9_of m (dats m 0 c) (A_eq m c 9) (after9 m c) t d
theorem before10 (c : Dev nD) (t : Fin cfg0.N) (d) : (dats m 0 c).before 10 t d = iblk m c 10 t :=
  before10_of m (dats m 0 c) (A_eq m c 10) (after10 m c) t d
theorem before11 (c : Dev nD) (t : Fin cfg0.N) (d) : (dats m 0 c).before 11 t d = iblk m c 11 t :=
  before11_of m (dats m 0 c) (A_eq m c 11) (after11 m c) t d
theorem before12 (c : Dev nD) (t : Fin cfg0.N) (d) : (dats m 0 c).before 12 t d = iblk m c 12 t :=
  before12_of m (dats m 0 c) (A_eq m c 12) (after12 m c) t d
theorem before13 (c : Dev nD) (t : Fin cfg0.N) (d) : (dats m 0 c).before 13 t d = iblk m c 13 t :=
  before13_of m (dats m 0 c) (A_eq m c 13) (after13 m c) t d
theorem before14 (c : Dev nD) (t : Fin cfg0.N) (d) : (dats m 0 c).before 14 t d = iblk m c 14 t :=
  before14_of m (dats m 0 c) (A_eq m c 14) (after14 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13, before14]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13, after14, after15]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (sound_kernel c Set.univ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, and every final state has each window's array at what the
    proof data says was written back, and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end, faults nowhere and leaves its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  frame_of m ρ (dats m) (run_main m ρ)

end Cert.KernelIdeal.Hand

end
-- ==== Proof.Spec.lean ====
/-
  The function both programs compute, one row at a time, on the extended reals.

  A row `z` of 2080 features goes through three blocks "normalise the row, apply an affine map, take tanh"
  (2080 → 512 → 512 → 512) and a last affine map to one number, again under tanh. Normalising a row `v` of
  length `n` means: subtract its mean (the row's sum divided by the float `n`), multiply by the reciprocal
  square root of the variance (the mean of the squared deviations) plus a small offset, multiply by the
  scale `g` and add the shift `b`, entry by entry. The affine map's weight matrix `W` is indexed
  [output, input]: entry `c` of the result is `∑ k, x k * W c k + bias c`.

  Sums are finite sums over the coordinates of the contracted axis; addition on the extended reals is
  commutative and associative, so no order of summation is recorded.
-/
import Idealize.ShloMosaic.PureOps.Ideal

noncomputable section

namespace Cert.CriticSpec

open Idealize.ShloMosaic

/-- The float 2080, the length of an input row. -/
abbrev len2080 : EReal := Ideal.ofBits .f32 0x45020000#32
/-- The float 512, the length of a hidden row. -/
abbrev len512 : EReal := Ideal.ofBits .f32 0x44000000#32
/-- The offset added to a variance before the reciprocal square root (the float nearest 1e-5). -/
abbrev varEps : EReal := Ideal.ofBits .f32 0x3727C5AC#32

/-- The mean of a row: its sum divided by the float length `len`. -/
def mean {n : ℕ} (len : EReal) (v : Fin n → EReal) : EReal := Ideal.div (∑ k, v k) len

/-- Entry `j` of the normalised row: `(v j - mean) * rsqrt (variance + varEps) * g j + b j`. -/
def layerNorm {n : ℕ} (len : EReal) (v g b : Fin n → EReal) (j : Fin n) : EReal :=
  (v j - mean len v)
    * Ideal.rsqrt (Ideal.div (∑ k, (v k - mean len v) * (v k - mean len v)) len + varEps)
    * g j + b j

/-- Entry `c` of `tanh (W x + bias)`, the weight indexed [output, input]. -/
def dense {n o : ℕ} (x : Fin n → EReal) (W : Fin o → Fin n → EReal) (bias : Fin o → EReal) (c : Fin o) : EReal :=
  Ideal.tanh ((∑ k, x k * W c k) + bias c)

/-- One block: normalise a row of length `n` (float length `len`), then the affine map and tanh. -/
def block {n o : ℕ} (len : EReal) (v g b : Fin n → EReal) (W : Fin o → Fin n → EReal) (bias : Fin o → EReal) :
    Fin o → EReal :=
  dense (layerNorm len v g b) W bias

/-- The whole network on one row `z`: three blocks, then `tanh (∑ k, h k * wout k + bout)`. -/
def rowOut (z g1 beta1 : Fin 2080 → EReal) (w1 : Fin 512 → Fin 2080 → EReal) (b1 : Fin 512 → EReal)
    (g2 beta2 : Fin 512 → EReal) (w2 : Fin 512 → Fin 512 → EReal) (b2 : Fin 512 → EReal)
    (g3 beta3 : Fin 512 → EReal) (w3 : Fin 512 → Fin 512 → EReal) (b3 : Fin 512 → EReal)
    (wout : Fin 512 → EReal) (bout : EReal) : EReal :=
  Ideal.tanh ((∑ k, block len512 (block len512 (block len2080 z g1 beta1 w1 b1) g2 beta2 w2 b2) g3 beta3 w3 b3 k * wout k)
    + bout)

end Cert.CriticSpec

end
-- ==== Proof.KernelStage.lean ====
/-
  Operations of a row-block body read at one coordinate, on the extended reals.

  A block of rows is a function of a row coordinate and a lane coordinate. The lemmas here read, at such a
  pair of coordinates, each operation the body applies to whole blocks: the sum over the lanes of a row, the
  cast of a column of row sums to a one-lane block and the broadcasts of a one-lane block or of a one-row
  block over a whole block, and the product of a block with the transpose of another (both contracted over
  their lanes) into the zero block. Entry-by-entry operations read entry by entry by definition.
-/
import Idealize.ShloMosaic.Lib.ValueLayout
import Idealize.ShloMosaic.PureOps.Ideal.Laws

noncomputable section

open scoped BigOperators

namespace Cert.KernelIdeal.Row

open Idealize.ShloMosaic Idealize.ShloMosaic.ValueIdx

variable {α : Type}

/-- A column of `a` values cast to an `a × 1` block reads, at row `i`, the column's value at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` block broadcast over `b` lanes reads, at `(p, c)`, the block's one value in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the lanes of an `a × b` block reads, at row `p`, the sum of that row's entries. -/
theorem rowSum_apply {a b : ℕ} (src : FVec Ideal ⟨2, ![a, b]⟩ .f32) (h : Shape.Reduces ⟨2, ![a, b]⟩ [1] ⟨1, ![a]⟩)
    (hφ : FKind.Formats .f32) (hacc : (0x00000000#32 : BitVec 32) = 0x00000000#32) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src ?_
  funext c
  apply Fin.ext
  match c with
  | ⟨0, _⟩ => rfl
  | ⟨1, _⟩ => rfl

/-- The product of an `m × k` block with the transpose of an `n × k` block, added into the zero block, reads at
    `(p, c)` the sum over the shared lane coordinate of the products of row `p` of the first and row `c` of the second. -/
theorem matmul_nt_zero_apply {m k n : ℕ} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂) (p : Fin m) (c : Fin n) :
    matmul (⟨[1], [1], [0], [0], [], [], w⟩ : DotDims _ _ _) prec A B (constant ⟨2, ![m, n]⟩ .f32 0x00000000#32) (ix2 p c)
      = ∑ j : Fin k, A (ix2 p j) * B (ix2 c j) := by
  show FloatOps.matmul _ prec A B _ (ix2 p c) = _
  rw [Ideal.matmul_constant_zero_apply,
    ← Equiv.sum_comp (contrEquiv1 (⟨[1], [1], [0], [0], [], [], w⟩ : DotDims _ _ _) k rfl rfl).symm]
  refine Finset.sum_congr rfl fun j _ => ?_
  have cj := contrEquiv1_symm_val
    (⟨[1], [1], [0], [0], [], [], w⟩ : DotDims ⟨2, ![m, k]⟩ ⟨2, ![n, k]⟩ ⟨2, ![m, n]⟩) k rfl rfl j
  have l2 : (⟨[1], [1], [0], [0], [], [], w⟩ : DotDims ⟨2, ![m, k]⟩ ⟨2, ![n, k]⟩ ⟨2, ![m, n]⟩).lhsIdx (ix2 p c)
      ((contrEquiv1 _ k rfl rfl).symm j) = ix2 p j := by
    funext ax; apply Fin.ext
    match ax with
    | ⟨0, _⟩ => simp [DotDims.lhsIdx]; rfl
    | ⟨1, _⟩ => simp [DotDims.lhsIdx]; exact cj
  have r2 : (⟨[1], [1], [0], [0], [], [], w⟩ : DotDims ⟨2, ![m, k]⟩ ⟨2, ![n, k]⟩ ⟨2, ![m, n]⟩).rhsIdx (ix2 p c)
      ((contrEquiv1 _ k rfl rfl).symm j) = ix2 c j := by
    funext ax; apply Fin.ext
    match ax with
    | ⟨0, _⟩ => simp [DotDims.rhsIdx]; rfl
    | ⟨1, _⟩ => simp [DotDims.rhsIdx]; exact cj
  rw [l2, r2]

end Cert.KernelIdeal.Row

end
-- ==== Proof.KernelOps.lean ====
/-
  The body's block operations at this program's sizes, read at one coordinate on the extended reals: the
  entry-by-entry functions, the sum over the lanes of a row of a 512 × 2080 and of a 512 × 512 block, and the
  two products "block times transposed block" into the zero block.
-/
import proofs.«150316_j43980465111579_2_alg».proof.Proof.Gen.KernelIdeal.Skeleton
import proofs.«150316_j43980465111579_2_alg».proof.Proof.KernelStage

noncomputable section

open scoped BigOperators

namespace Cert.KernelIdeal.Row

open Idealize.ShloMosaic Idealize.ShloMosaic.ValueIdx Cert.KernelIdeal Cert.KernelIdeal.Gen

section Pointwise
variable {s : Shape} {φ : FTy}

/-- The hyperbolic tangent of a block is taken entry by entry. -/
theorem tanh_apply (a : FVec Ideal s φ) (i : s.Idx) : tanh a i = Ideal.tanh (a i) := rfl
/-- The reciprocal square root of a block is taken entry by entry. -/
theorem rsqrt_apply (a : FVec Ideal s φ) (i : s.Idx) : rsqrt a i = Ideal.rsqrt (a i) := rfl
/-- A float literal is the extended real its word encodes. -/
theorem scalar_ofBits (b : BitVec φ.bits) : Scalar.ofBits (F := Ideal) φ b = Ideal.ofBits φ b := rfl

end Pointwise

/-- The lane sum of a 512 × 2080 block at row `p`. -/
theorem rowSum2080_apply (src : FVec Ideal S512x2080 .f32) (h : S512x2080.Reduces [1] S512) (hφ : FKind.Formats .f32)
    (hacc : (0x00000000#32 : BitVec 32) = 0x00000000#32) (p : Fin 512) :
    multiReduction .add [1] S512 src 0x00000000#32 h hφ hacc (ix1 p) = ∑ k : Fin 2080, src (ix2 p k) :=
  rowSum_apply src h hφ hacc p

/-- The lane sum of a 512 × 512 block at row `p`. -/
theorem rowSum512_apply (src : FVec Ideal S512x512 .f32) (h : S512x512.Reduces [1] S512) (hφ : FKind.Formats .f32)
    (hacc : (0x00000000#32 : BitVec 32) = 0x00000000#32) (p : Fin 512) :
    multiReduction .add [1] S512 src 0x00000000#32 h hφ hacc (ix1 p) = ∑ k : Fin 512, src (ix2 p k) :=
  rowSum_apply src h hφ hacc p

/-- The first product at `(p, c)`: row `p` of the left block against row `c` of the right one, over 2080 lanes. -/
theorem matmul2080_apply {φ₁ φ₂ : FTy} (A : FVec Ideal S512x2080 φ₁) (B : FVec Ideal S512x2080 φ₂) (p c : Fin 512) :
    matmul dot_S512x2080_S512x2080_S512x512_1_1_0_0_n_n none A B (constant S512x512 .f32 0x00000000#32) (ix2 p c)
      = ∑ j : Fin 2080, A (ix2 p j) * B (ix2 c j) :=
  matmul_nt_zero_apply Gen.dot_S512x2080_S512x2080_S512x512_1_1_0_0_n_n_wf none A B p c

/-- The later products at `(p, c)`: row `p` of the left block against row `c` of the right one, over 512 lanes. -/
theorem matmul512_apply {φ₁ φ₂ : FTy} (A : FVec Ideal S512x512 φ₁) (B : FVec Ideal S512x512 φ₂) (p c : Fin 512) :
    matmul dot_S512x512_S512x512_S512x512_1_1_0_0_n_n none A B (constant S512x512 .f32 0x00000000#32) (ix2 p c)
      = ∑ j : Fin 512, A (ix2 p j) * B (ix2 c j) :=
  matmul_nt_zero_apply Gen.dot_S512x512_S512x512_S512x512_1_1_0_0_n_n_wf none A B p c

end Cert.KernelIdeal.Row

end
-- ==== Proof.KernelRow1.lean ====
/-
  The first stage of the body read at one coordinate: entry (p, c) of the first hidden block is entry c of
  "normalise row p of the features, apply the first affine map, take tanh".
-/
import proofs.«150316_j43980465111579_2_alg».proof.Proof.KernelOps
import proofs.«150316_j43980465111579_2_alg».proof.Proof.Spec

noncomputable section

open scoped BigOperators

namespace Cert.KernelIdeal.Row

open Idealize.ShloMosaic Idealize.ShloMosaic.ValueIdx Cert.KernelIdeal Cert.KernelIdeal.Gen

/-- Entry `(p, c)` of the first hidden block. -/
theorem pay2_apply (x0 : FVec Ideal S512x2080 .f32) (x1 x2 : FVec Ideal S1x2080 .f32) (x3 : FVec Ideal S512x2080 .bf16)
    (x4 : FVec Ideal S1x512 .f32) (p c : Fin 512) :
    k0_pay2 (F := Ideal) x0 x1 x2 x3 x4 (ix2 p c)
      = Cert.CriticSpec.block Cert.CriticSpec.len2080 (fun k => x0 (ix2 p k)) (fun k => x1 (ix2 (0 : Fin 1) k))
          (fun k => x2 (ix2 (0 : Fin 1) k)) (fun c k => x3 (ix2 c k)) (fun c => x4 (ix2 (0 : Fin 1) c)) c := by
  unfold k0_pay2
  simp only [tanh_apply, rsqrt_apply, addf_apply, mulf_apply, subf_apply, divf_apply, truncf_apply, extf_apply,
    broadcast_apply, shapeCast_self, broadcastTo_a1_ab_apply, broadcastTo_1b_ab_apply, shapeCast_a_a1_apply, scalar_ofBits, matmul2080_apply]
  repeat (rw [rowSum2080_apply]; try simp only [addf_apply, mulf_apply, subf_apply, divf_apply, broadcast_apply,
    shapeCast_self, broadcastTo_a1_ab_apply, shapeCast_a_a1_apply, scalar_ofBits])
  rfl

end Cert.KernelIdeal.Row

end
-- ==== Proof.KernelRow2.lean ====
/-
  The second stage of the body read at one coordinate: entry (p, c) of the second hidden block is entry c of
  "normalise row p of the first hidden block, apply the second affine map, take tanh"; and the two statistics of
  the second hidden block the body carries on: the mean of row p, and the squared deviation from it at (p, k).
-/
import proofs.«150316_j43980465111579_2_alg».proof.Proof.KernelOps
import proofs.«150316_j43980465111579_2_alg».proof.Proof.Spec

noncomputable section

open scoped BigOperators

namespace Cert.KernelIdeal.Row

open Idealize.ShloMosaic Idealize.ShloMosaic.ValueIdx Cert.KernelIdeal Cert.KernelIdeal.Gen

/-- Entry `(p, c)` of the second hidden block. -/
theorem pay4_apply (h1 : FVec Ideal S512x512 .f32) (g b : FVec Ideal S1x512 .f32) (W : FVec Ideal S512x512 .bf16)
    (bias : FVec Ideal S1x512 .f32) (p c : Fin 512) :
    k0_pay4 (F := Ideal) h1 g b W bias (ix2 p c)
      = Cert.CriticSpec.block Cert.CriticSpec.len512 (fun k => h1 (ix2 p k)) (fun k => g (ix2 (0 : Fin 1) k))
          (fun k => b (ix2 (0 : Fin 1) k)) (fun c k => W (ix2 c k)) (fun c => bias (ix2 (0 : Fin 1) c)) c := by
  unfold k0_pay4
  simp only [tanh_apply, rsqrt_apply, addf_apply, mulf_apply, subf_apply, divf_apply, truncf_apply, extf_apply,
    broadcast_apply, shapeCast_self, broadcastTo_a1_ab_apply, broadcastTo_1b_ab_apply, shapeCast_a_a1_apply, scalar_ofBits, matmul512_apply]
  repeat (rw [rowSum512_apply]; try simp only [addf_apply, mulf_apply, subf_apply, divf_apply, broadcast_apply,
    shapeCast_self, broadcastTo_a1_ab_apply, shapeCast_a_a1_apply, scalar_ofBits])
  rfl

/-- The mean of row `p` of the second hidden block. -/
theorem pay7_apply (h1 : FVec Ideal S512x512 .f32) (g b : FVec Ideal S1x512 .f32) (W : FVec Ideal S512x512 .bf16)
    (bias : FVec Ideal S1x512 .f32) (p : Fin 512) :
    k0_pay7 (F := Ideal) h1 g b W bias (ix2 p (0 : Fin 1))
      = Cert.CriticSpec.mean Cert.CriticSpec.len512 (fun k => k0_pay4 (F := Ideal) h1 g b W bias (ix2 p k)) := by
  unfold k0_pay7
  simp only [divf_apply, broadcast_apply, shapeCast_a_a1_apply, scalar_ofBits]
  rw [rowSum512_apply]
  rfl

/-- The squared deviation of entry `(p, k)` of the second hidden block from its row's mean. -/
theorem pay8_apply (h1 : FVec Ideal S512x512 .f32) (g b : FVec Ideal S1x512 .f32) (W : FVec Ideal S512x512 .bf16)
    (bias : FVec Ideal S1x512 .f32) (p k : Fin 512) :
    k0_pay8 (F := Ideal) h1 g b W bias (ix2 p k)
      = (k0_pay4 (F := Ideal) h1 g b W bias (ix2 p k)
            - Cert.CriticSpec.mean Cert.CriticSpec.len512 (fun k => k0_pay4 (F := Ideal) h1 g b W bias (ix2 p k)))
          * (k0_pay4 (F := Ideal) h1 g b W bias (ix2 p k)
            - Cert.CriticSpec.mean Cert.CriticSpec.len512 (fun k => k0_pay4 (F := Ideal) h1 g b W bias (ix2 p k))) := by
  unfold k0_pay8
  simp only [mulf_apply, subf_apply, broadcastTo_a1_ab_apply, pay7_apply]

end Cert.KernelIdeal.Row

end
-- ==== Proof.KernelRow3.lean ====
/-
  The last stage of the body read at one coordinate. Given a block `h`, the mean `m` of each of its rows and the
  squared deviations `q` from it, the stored value at row p is tanh of the last affine map applied to
  "normalise row p of h, apply the third affine map, take tanh".
-/
import proofs.«150316_j43980465111579_2_alg».proof.Proof.KernelOps
import proofs.«150316_j43980465111579_2_alg».proof.Proof.Spec

noncomputable section

open scoped BigOperators

namespace Cert.KernelIdeal.Row

open Idealize.ShloMosaic Idealize.ShloMosaic.ValueIdx Cert.KernelIdeal Cert.KernelIdeal.Gen

/-- Row `p` of what the body stores, from the second hidden block `h` and its row statistics. -/
theorem pay1_apply (h : FVec Ideal S512x512 .f32) (g b : FVec Ideal S1x512 .f32) (m : FVec Ideal S512x1 .f32)
    (q : FVec Ideal S512x512 .f32) (W : FVec Ideal S512x512 .bf16) (bias : FVec Ideal S1x512 .f32)
    (wout : FVec Ideal S1x512 .bf16) (bout : FVec Ideal S1x1 .f32) (p : Fin 512)
    (hm : m (ix2 p (0 : Fin 1)) = Cert.CriticSpec.mean Cert.CriticSpec.len512 (fun k => h (ix2 p k)))
    (hq : ∀ k : Fin 512, q (ix2 p k)
      = (h (ix2 p k) - Cert.CriticSpec.mean Cert.CriticSpec.len512 (fun k => h (ix2 p k)))
          * (h (ix2 p k) - Cert.CriticSpec.mean Cert.CriticSpec.len512 (fun k => h (ix2 p k)))) :
    k0_pay1 (F := Ideal) h g b m q W bias wout bout (ix2 p (0 : Fin 1))
      = Ideal.tanh ((∑ k : Fin 512,
            Cert.CriticSpec.block Cert.CriticSpec.len512 (fun k => h (ix2 p k)) (fun k => g (ix2 (0 : Fin 1) k))
              (fun k => b (ix2 (0 : Fin 1) k)) (fun c k => W (ix2 c k)) (fun c => bias (ix2 (0 : Fin 1) c)) k
              * wout (ix2 (0 : Fin 1) k))
          + bout (ix2 (0 : Fin 1) (0 : Fin 1))) := by
  unfold k0_pay1
  simp only [tanh_apply, rsqrt_apply, addf_apply, mulf_apply, subf_apply, divf_apply, truncf_apply, extf_apply,
    broadcast_apply, shapeCast_self, broadcastTo_a1_ab_apply, broadcastTo_1b_ab_apply, shapeCast_a_a1_apply, scalar_ofBits, matmul512_apply]
  repeat (rw [rowSum512_apply]; try simp only [tanh_apply, rsqrt_apply, addf_apply, mulf_apply, subf_apply, divf_apply, truncf_apply, extf_apply,
    broadcast_apply, shapeCast_self, broadcastTo_a1_ab_apply, broadcastTo_1b_ab_apply, shapeCast_a_a1_apply, scalar_ofBits, matmul512_apply])
  simp only [hm, hq]
  rfl

end Cert.KernelIdeal.Row

end
-- ==== Proof.KernelRow.lean ====
/-
  What one grid point's body stores, read at a row: row p of the stored 512 × 1 block is the whole network
  applied to row p of the feature block, with the weights read off the blocks the body loads. The three
  stages are read one after the other; each hidden block at (p, k) is the specified block function at k.
-/
import proofs.«150316_j43980465111579_2_alg».proof.Proof.KIBlock
import proofs.«150316_j43980465111579_2_alg».proof.Proof.Spec
import proofs.«150316_j43980465111579_2_alg».proof.Proof.KernelRow1
import proofs.«150316_j43980465111579_2_alg».proof.Proof.KernelRow2
import proofs.«150316_j43980465111579_2_alg».proof.Proof.KernelRow3

noncomputable section

open scoped BigOperators

namespace Cert.KernelIdeal.Row

open Idealize.ShloMosaic Idealize.ShloMosaic.ValueIdx Cert.KernelIdeal Cert.KernelIdeal.Gen

/-- Row `p` of the stored block is `rowOut` of row `p` of the features. -/
theorem blockOut_apply (x0 : Vec Ideal S512x2080 .f32) (x1 x2 : Vec Ideal S1x2080 .f32) (x3 : Vec Ideal S512x2080 .bf16)
    (x4 x5 x6 : Vec Ideal S1x512 .f32) (x7 : Vec Ideal S512x512 .bf16) (x8 x9 x10 : Vec Ideal S1x512 .f32)
    (x11 : Vec Ideal S512x512 .bf16) (x12 : Vec Ideal S1x512 .f32) (x13 : Vec Ideal S1x512 .bf16) (x14 : Vec Ideal S1x1 .f32)
    (p : Fin 512) :
    Cert.KernelIdeal.Hand.blockOut x0 x1 x2 x3 x4 x5 x6 x7 x8 x9 x10 x11 x12 x13 x14 (ix2 p (0 : Fin 1))
      = Cert.CriticSpec.rowOut (fun k => x0 (ix2 p k))
          (fun k => x1 (ix2 (0 : Fin 1) k)) (fun k => x2 (ix2 (0 : Fin 1) k)) (fun c k => x3 (ix2 c k)) (fun c => x4 (ix2 (0 : Fin 1) c))
          (fun k => x5 (ix2 (0 : Fin 1) k)) (fun k => x6 (ix2 (0 : Fin 1) k)) (fun c k => x7 (ix2 c k)) (fun c => x8 (ix2 (0 : Fin 1) c))
          (fun k => x9 (ix2 (0 : Fin 1) k)) (fun k => x10 (ix2 (0 : Fin 1) k)) (fun c k => x11 (ix2 c k)) (fun c => x12 (ix2 (0 : Fin 1) c))
          (fun k => x13 (ix2 (0 : Fin 1) k)) (x14 (ix2 (0 : Fin 1) (0 : Fin 1))) := by
  unfold Hand.blockOut Hand.stage2 Hand.stage1
  rw [pay1_apply _ _ _ _ _ _ _ _ _ p (pay7_apply _ _ _ _ _ p) (fun k => pay8_apply _ _ _ _ _ p k)]
  simp only [pay4_apply, pay2_apply, k0_pay3, k0_pay5, k0_pay6, shapeCast_self]
  rfl

end Cert.KernelIdeal.Row

end
-- ==== Proof.KIValue.lean ====
/-
  The array the region writes, as one function of the arrays the region finds.

  Row `r` of the result is the network of the specification applied to row `r` of the feature array and to the
  parameter arrays. Grid point `t` loads rows 512·t … 512·t+511 of the features (the other windows' blocks
  are their whole arrays at every point) and writes rows 512·t … 512·t+511 of the result, so what it writes
  back is block `t` of that function; the 64 blocks cover the 32768 rows, the point covering row `r` being
  `r / 512`. The one-row parameter arrays are the host's re-laying of the argument vectors, and the two-byte
  copies of the weights are the weights themselves on the extended reals.
-/
import proofs.«150316_j43980465111579_2_alg».proof.Proof.KIFrame
import proofs.«150316_j43980465111579_2_alg».proof.Proof.KernelRow
import Idealize.ShloMosaic.Lib.Pipeline.Value
import Idealize.ShloMosaic.Lib.ValueLayout
import Idealize.ShloMosaic.Lib.StableHlo.Run

set_option maxRecDepth 16384

noncomputable section

namespace Cert.KernelIdeal.HandValue

open Cert.KernelIdeal Cert.KernelIdeal.Gen Cert.KernelIdeal.Hand Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-- Row `r` of the result from row `r` of the feature array `Z` and the argument arrays. -/
def rowOf (Z : S32768x2080.Idx → EReal) (g1 beta1 : S2080.Idx → EReal) (w1 : S512x2080.Idx → EReal) (b1 : S512.Idx → EReal)
    (g2 beta2 : S512.Idx → EReal) (w2 : S512x512.Idx → EReal) (b2 : S512.Idx → EReal)
    (g3 beta3 : S512.Idx → EReal) (w3 : S512x512.Idx → EReal) (b3 : S512.Idx → EReal)
    (wout : S1x512.Idx → EReal) (bout : S1.Idx → EReal) (r : Fin 32768) : EReal :=
  Cert.CriticSpec.rowOut (fun k => Z (ix2 r k))
    (fun k => g1 (ix1 k)) (fun k => beta1 (ix1 k)) (fun c k => w1 (ix2 c k)) (fun c => b1 (ix1 c))
    (fun k => g2 (ix1 k)) (fun k => beta2 (ix1 k)) (fun c k => w2 (ix2 c k)) (fun c => b2 (ix1 c))
    (fun k => g3 (ix1 k)) (fun k => beta3 (ix1 k)) (fun c k => w3 (ix2 c k)) (fun c => b3 (ix1 c))
    (fun k => wout (ix2 (0 : Fin 1) k)) (bout (ix1 (0 : Fin 1)))

/-- The result array: row by row. -/
def result (Z : S32768x2080.Idx → EReal) (g1 beta1 : S2080.Idx → EReal) (w1 : S512x2080.Idx → EReal) (b1 : S512.Idx → EReal)
    (g2 beta2 : S512.Idx → EReal) (w2 : S512x512.Idx → EReal) (b2 : S512.Idx → EReal)
    (g3 beta3 : S512.Idx → EReal) (w3 : S512x512.Idx → EReal) (b3 : S512.Idx → EReal)
    (wout : S1x512.Idx → EReal) (bout : S1.Idx → EReal) : S32768x1.Idx → EReal :=
  fun i => rowOf Z g1 beta1 w1 b1 g2 beta2 w2 b2 g3 beta3 w3 b3 wout bout (i 0)

/-! ## The index maps over the grid -/

theorem hz : (![0, 0] : Fin 2 → Nat) = fun _ => 0 := funext fun a => by fin_cases a <;> rfl

/-- Decided over the 64 points: the feature window and the result window sit at the same row block, in column block 0;
    every other window stays at block (0, 0). -/
theorem idx_facts : ∀ t : Fin cfg0.N, win0_0.index t (0 : Fin 2) = win0_15.index t (0 : Fin 2)
    ∧ win0_0.index t (1 : Fin 2) = 0 ∧ win0_15.index t (1 : Fin 2) = 0 ∧ win0_15.index t (0 : Fin 2) ≤ 63
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0
    ∧ win0_13.index t (0 : Fin 2) = 0 ∧ win0_13.index t (1 : Fin 2) = 0
    ∧ win0_14.index t (0 : Fin 2) = 0 ∧ win0_14.index t (1 : Fin 2) = 0 :=
  (by decide +kernel : ∀ t : Fin grid0.N, _)

/-- Every row block is some point's. -/
theorem idx_onto : ∀ q0 : Fin 64, ∃ t : Fin cfg0.N, win0_15.index t = ![q0.val, 0] :=
  (by decide +kernel : ∀ q0 : Fin 64, ∃ t : Fin grid0.N, win0_15.index t = ![q0.val, 0])

/-! ## What the region finds in the one-row parameter arrays and the weight copies -/

/-- The host re-lays argument vector `main_arg2` as the one-row array `main_v7`. -/
theorem V_main_v7 (c : Dev nD) : (V m c main_v7 : S1x2080.Idx → EReal) = shapeCast S1x2080 (m ((c : Thread nD τ).loc main_arg2)) shapeCasts_S2080_S1x2080 := by
  dsimp only [V, hostOps0]; after_results <;> rfl
/-- The host re-lays argument vector `main_arg3` as the one-row array `main_v8`. -/
theorem V_main_v8 (c : Dev nD) : (V m c main_v8 : S1x2080.Idx → EReal) = shapeCast S1x2080 (m ((c : Thread nD τ).loc main_arg3)) shapeCasts_S2080_S1x2080 := by
  dsimp only [V, hostOps0]; after_results <;> rfl
/-- The host's two-byte copy `main_v17` of `main_arg8`. -/
theorem V_main_v17 (c : Dev nD) : (V m c main_v17 : S512x2080.Idx → EReal) = (truncf (F := Ideal) .bf16 (m ((c : Thread nD τ).loc main_arg8) : FVec Ideal S512x2080 .f32) bitsLt_bf16_f32 : FVec Ideal S512x2080 .bf16) := by
  dsimp only [V, hostOps0]; after_results <;> rfl
/-- The host re-lays argument vector `main_arg9` as the one-row array `main_v13`. -/
theorem V_main_v13 (c : Dev nD) : (V m c main_v13 : S1x512.Idx → EReal) = shapeCast S1x512 (m ((c : Thread nD τ).loc main_arg9)) shapeCasts_S512_S1x512 := by
  dsimp only [V, hostOps0]; after_results <;> rfl
/-- The host re-lays argument vector `main_arg4` as the one-row array `main_v9`. -/
theorem V_main_v9 (c : Dev nD) : (V m c main_v9 : S1x512.Idx → EReal) = shapeCast S1x512 (m ((c : Thread nD τ).loc main_arg4)) shapeCasts_S512_S1x512 := by
  dsimp only [V, hostOps0]; after_results <;> rfl
/-- The host re-lays argument vector `main_arg5` as the one-row array `main_v10`. -/
theorem V_main_v10 (c : Dev nD) : (V m c main_v10 : S1x512.Idx → EReal) = shapeCast S1x512 (m ((c : Thread nD τ).loc main_arg5)) shapeCasts_S512_S1x512 := by
  dsimp only [V, hostOps0]; after_results <;> rfl
/-- The host's two-byte copy `main_v18` of `main_arg10`. -/
theorem V_main_v18 (c : Dev nD) : (V m c main_v18 : S512x512.Idx → EReal) = (truncf (F := Ideal) .bf16 (m ((c : Thread nD τ).loc main_arg10) : FVec Ideal S512x512 .f32) bitsLt_bf16_f32 : FVec Ideal S512x512 .bf16) := by
  dsimp only [V, hostOps0]; after_results <;> rfl
/-- The host re-lays argument vector `main_arg11` as the one-row array `main_v14`. -/
theorem V_main_v14 (c : Dev nD) : (V m c main_v14 : S1x512.Idx → EReal) = shapeCast S1x512 (m ((c : Thread nD τ).loc main_arg11)) shapeCasts_S512_S1x512 := by
  dsimp only [V, hostOps0]; after_results <;> rfl
/-- The host re-lays argument vector `main_arg6` as the one-row array `main_v11`. -/
theorem V_main_v11 (c : Dev nD) : (V m c main_v11 : S1x512.Idx → EReal) = shapeCast S1x512 (m ((c : Thread nD τ).loc main_arg6)) shapeCasts_S512_S1x512 := by
  dsimp only [V, hostOps0]; after_results <;> rfl
/-- The host re-lays argument vector `main_arg7` as the one-row array `main_v12`. -/
theorem V_main_v12 (c : Dev nD) : (V m c main_v12 : S1x512.Idx → EReal) = shapeCast S1x512 (m ((c : Thread nD τ).loc main_arg7)) shapeCasts_S512_S1x512 := by
  dsimp only [V, hostOps0]; after_results <;> rfl
/-- The host's two-byte copy `main_v19` of `main_arg12`. -/
theorem V_main_v19 (c : Dev nD) : (V m c main_v19 : S512x512.Idx → EReal) = (truncf (F := Ideal) .bf16 (m ((c : Thread nD τ).loc main_arg12) : FVec Ideal S512x512 .f32) bitsLt_bf16_f32 : FVec Ideal S512x512 .bf16) := by
  dsimp only [V, hostOps0]; after_results <;> rfl
/-- The host re-lays argument vector `main_arg13` as the one-row array `main_v15`. -/
theorem V_main_v15 (c : Dev nD) : (V m c main_v15 : S1x512.Idx → EReal) = shapeCast S1x512 (m ((c : Thread nD τ).loc main_arg13)) shapeCasts_S512_S1x512 := by
  dsimp only [V, hostOps0]; after_results <;> rfl
/-- The host's two-byte copy `main_v20` of `main_arg14`. -/
theorem V_main_v20 (c : Dev nD) : (V m c main_v20 : S1x512.Idx → EReal) = (truncf (F := Ideal) .bf16 (m ((c : Thread nD τ).loc main_arg14) : FVec Ideal S1x512 .f32) bitsLt_bf16_f32 : FVec Ideal S1x512 .bf16) := by
  dsimp only [V, hostOps0]; after_results <;> rfl
/-- The host re-lays argument vector `main_arg15` as the one-row array `main_v16`. -/
theorem V_main_v16 (c : Dev nD) : (V m c main_v16 : S1x1.Idx → EReal) = shapeCast S1x1 (m ((c : Thread nD τ).loc main_arg15)) shapeCasts_S1_S1x1 := by
  dsimp only [V, hostOps0]; after_results <;> rfl

/-- The feature array the region finds: the first argument's two column halves divided by 50 and by 10, joined with
    the second argument along the feature axis. -/
theorem V_main_v6 (c : Dev nD) : (V m c main_v6 : S32768x2080.Idx → EReal)
    = concatenate S32768x2080 1 [⟨S32768x1024, Host.divf (F := Ideal) (extractStridedSlice S32768x1024 ![0, 0] (m ((c : Thread nD τ).loc main_arg0)) slices_S32768x2048_S32768x1024_0_0) (broadcastInDim S32768x1024 ![] bcast_S_S32768x1024 (constant (F := Ideal) S_ .f32 0x42480000#32))⟩,
        ⟨S32768x1024, Host.divf (F := Ideal) (extractStridedSlice S32768x1024 ![0, 1024] (m ((c : Thread nD τ).loc main_arg0)) slices_S32768x2048_S32768x1024_0_1024) (broadcastInDim S32768x1024 ![] bcast_S_S32768x1024 (constant (F := Ideal) S_ .f32 0x41200000#32))⟩,
        ⟨S32768x32, m ((c : Thread nD τ).loc main_arg1)⟩] concatenates_S32768x1024_S32768x1024_S32768x32_S32768x2080_d1 := by
  dsimp only [V, hostOps0]; after_results <;> rfl

/-! ## The blocks the body loads -/

/-- The feature block at point `t`, row `p`, is the row of the feature array that the result block's row `p` lands on. -/
theorem blk0 (c : Dev nD) (t : Fin cfg0.N) (p : Fin 512) :
    (fun k : Fin 2080 => iblk m c 0 t (ix2 p k))
      = fun k => V m c main_v6 (ix2 ((((cfg0.win 15).blk t).view.emb (ix2 p (0 : Fin 1))) 0) k) := by
  funext k
  show V m c main_v6 (((cfg0.win 0).blk t).view.emb (ix2 p k)) = V m c main_v6 (ix2 ((((cfg0.win 15).blk t).view.emb (ix2 p (0 : Fin 1))) 0) k)
  refine congrArg _ (funext fun a => Fin.ext ?_)
  have h := idx_facts t
  match a with
  | ⟨0, _⟩ => show win0_0.index t (0 : Fin 2) * 512 + 1 * p.val = win0_15.index t (0 : Fin 2) * 512 + 1 * p.val; omega
  | ⟨1, _⟩ => show win0_0.index t (1 : Fin 2) * 2080 + 1 * k.val = k.val; omega

/-- Window 1's block is its whole array at every point. -/
theorem iblk1 (c : Dev nD) (t : Fin cfg0.N) (y : S1x2080.Idx) : iblk m c 1 t y = V m c main_v7 y := by
  show V m c main_v7 (((cfg0.win 1).blk t).view.emb y) = V m c main_v7 y
  refine congrArg _ (funext fun a => Fin.ext ?_)
  have h := idx_facts t
  match a with
  | ⟨0, _⟩ => show win0_1.index t (0 : Fin 2) * 1 + 1 * (y 0).val = (y 0).val; omega
  | ⟨1, _⟩ => show win0_1.index t (1 : Fin 2) * 2080 + 1 * (y 1).val = (y 1).val; omega
theorem blk1 (c : Dev nD) (t : Fin cfg0.N) :
    (fun k : Fin 2080 => iblk m c 1 t (ix2 (0 : Fin 1) k)) = fun k => m ((c : Thread nD τ).loc main_arg2) (ix1 k) := by
  funext k
  rw [iblk1, V_main_v7]
  exact shapeCast_a_1a_apply _ _ _ _
/-- Window 2's block is its whole array at every point. -/
theorem iblk2 (c : Dev nD) (t : Fin cfg0.N) (y : S1x2080.Idx) : iblk m c 2 t y = V m c main_v8 y := by
  show V m c main_v8 (((cfg0.win 2).blk t).view.emb y) = V m c main_v8 y
  refine congrArg _ (funext fun a => Fin.ext ?_)
  have h := idx_facts t
  match a with
  | ⟨0, _⟩ => show win0_2.index t (0 : Fin 2) * 1 + 1 * (y 0).val = (y 0).val; omega
  | ⟨1, _⟩ => show win0_2.index t (1 : Fin 2) * 2080 + 1 * (y 1).val = (y 1).val; omega
theorem blk2 (c : Dev nD) (t : Fin cfg0.N) :
    (fun k : Fin 2080 => iblk m c 2 t (ix2 (0 : Fin 1) k)) = fun k => m ((c : Thread nD τ).loc main_arg3) (ix1 k) := by
  funext k
  rw [iblk2, V_main_v8]
  exact shapeCast_a_1a_apply _ _ _ _
/-- Window 3's block is its whole array at every point. -/
theorem iblk3 (c : Dev nD) (t : Fin cfg0.N) (y : S512x2080.Idx) : iblk m c 3 t y = V m c main_v17 y := by
  show V m c main_v17 (((cfg0.win 3).blk t).view.emb y) = V m c main_v17 y
  refine congrArg _ (funext fun a => Fin.ext ?_)
  have h := idx_facts t
  match a with
  | ⟨0, _⟩ => show win0_3.index t (0 : Fin 2) * 512 + 1 * (y 0).val = (y 0).val; omega
  | ⟨1, _⟩ => show win0_3.index t (1 : Fin 2) * 2080 + 1 * (y 1).val = (y 1).val; omega
theorem blk3 (c : Dev nD) (t : Fin cfg0.N) :
    (fun (o : Fin 512) (k : Fin 2080) => iblk m c 3 t (ix2 o k)) = fun o k => m ((c : Thread nD τ).loc main_arg8) (ix2 o k) := by
  funext o k
  rw [iblk3, V_main_v17]
  rfl
/-- Window 4's block is its whole array at every point. -/
theorem iblk4 (c : Dev nD) (t : Fin cfg0.N) (y : S1x512.Idx) : iblk m c 4 t y = V m c main_v13 y := by
  show V m c main_v13 (((cfg0.win 4).blk t).view.emb y) = V m c main_v13 y
  refine congrArg _ (funext fun a => Fin.ext ?_)
  have h := idx_facts t
  match a with
  | ⟨0, _⟩ => show win0_4.index t (0 : Fin 2) * 1 + 1 * (y 0).val = (y 0).val; omega
  | ⟨1, _⟩ => show win0_4.index t (1 : Fin 2) * 512 + 1 * (y 1).val = (y 1).val; omega
theorem blk4 (c : Dev nD) (t : Fin cfg0.N) :
    (fun k : Fin 512 => iblk m c 4 t (ix2 (0 : Fin 1) k)) = fun k => m ((c : Thread nD τ).loc main_arg9) (ix1 k) := by
  funext k
  rw [iblk4, V_main_v13]
  exact shapeCast_a_1a_apply _ _ _ _
/-- Window 5's block is its whole array at every point. -/
theorem iblk5 (c : Dev nD) (t : Fin cfg0.N) (y : S1x512.Idx) : iblk m c 5 t y = V m c main_v9 y := by
  show V m c main_v9 (((cfg0.win 5).blk t).view.emb y) = V m c main_v9 y
  refine congrArg _ (funext fun a => Fin.ext ?_)
  have h := idx_facts t
  match a with
  | ⟨0, _⟩ => show win0_5.index t (0 : Fin 2) * 1 + 1 * (y 0).val = (y 0).val; omega
  | ⟨1, _⟩ => show win0_5.index t (1 : Fin 2) * 512 + 1 * (y 1).val = (y 1).val; omega
theorem blk5 (c : Dev nD) (t : Fin cfg0.N) :
    (fun k : Fin 512 => iblk m c 5 t (ix2 (0 : Fin 1) k)) = fun k => m ((c : Thread nD τ).loc main_arg4) (ix1 k) := by
  funext k
  rw [iblk5, V_main_v9]
  exact shapeCast_a_1a_apply _ _ _ _
/-- Window 6's block is its whole array at every point. -/
theorem iblk6 (c : Dev nD) (t : Fin cfg0.N) (y : S1x512.Idx) : iblk m c 6 t y = V m c main_v10 y := by
  show V m c main_v10 (((cfg0.win 6).blk t).view.emb y) = V m c main_v10 y
  refine congrArg _ (funext fun a => Fin.ext ?_)
  have h := idx_facts t
  match a with
  | ⟨0, _⟩ => show win0_6.index t (0 : Fin 2) * 1 + 1 * (y 0).val = (y 0).val; omega
  | ⟨1, _⟩ => show win0_6.index t (1 : Fin 2) * 512 + 1 * (y 1).val = (y 1).val; omega
theorem blk6 (c : Dev nD) (t : Fin cfg0.N) :
    (fun k : Fin 512 => iblk m c 6 t (ix2 (0 : Fin 1) k)) = fun k => m ((c : Thread nD τ).loc main_arg5) (ix1 k) := by
  funext k
  rw [iblk6, V_main_v10]
  exact shapeCast_a_1a_apply _ _ _ _
/-- Window 7's block is its whole array at every point. -/
theorem iblk7 (c : Dev nD) (t : Fin cfg0.N) (y : S512x512.Idx) : iblk m c 7 t y = V m c main_v18 y := by
  show V m c main_v18 (((cfg0.win 7).blk t).view.emb y) = V m c main_v18 y
  refine congrArg _ (funext fun a => Fin.ext ?_)
  have h := idx_facts t
  match a with
  | ⟨0, _⟩ => show win0_7.index t (0 : Fin 2) * 512 + 1 * (y 0).val = (y 0).val; omega
  | ⟨1, _⟩ => show win0_7.index t (1 : Fin 2) * 512 + 1 * (y 1).val = (y 1).val; omega
theorem blk7 (c : Dev nD) (t : Fin cfg0.N) :
    (fun (o : Fin 512) (k : Fin 512) => iblk m c 7 t (ix2 o k)) = fun o k => m ((c : Thread nD τ).loc main_arg10) (ix2 o k) := by
  funext o k
  rw [iblk7, V_main_v18]
  rfl
/-- Window 8's block is its whole array at every point. -/
theorem iblk8 (c : Dev nD) (t : Fin cfg0.N) (y : S1x512.Idx) : iblk m c 8 t y = V m c main_v14 y := by
  show V m c main_v14 (((cfg0.win 8).blk t).view.emb y) = V m c main_v14 y
  refine congrArg _ (funext fun a => Fin.ext ?_)
  have h := idx_facts t
  match a with
  | ⟨0, _⟩ => show win0_8.index t (0 : Fin 2) * 1 + 1 * (y 0).val = (y 0).val; omega
  | ⟨1, _⟩ => show win0_8.index t (1 : Fin 2) * 512 + 1 * (y 1).val = (y 1).val; omega
theorem blk8 (c : Dev nD) (t : Fin cfg0.N) :
    (fun k : Fin 512 => iblk m c 8 t (ix2 (0 : Fin 1) k)) = fun k => m ((c : Thread nD τ).loc main_arg11) (ix1 k) := by
  funext k
  rw [iblk8, V_main_v14]
  exact shapeCast_a_1a_apply _ _ _ _
/-- Window 9's block is its whole array at every point. -/
theorem iblk9 (c : Dev nD) (t : Fin cfg0.N) (y : S1x512.Idx) : iblk m c 9 t y = V m c main_v11 y := by
  show V m c main_v11 (((cfg0.win 9).blk t).view.emb y) = V m c main_v11 y
  refine congrArg _ (funext fun a => Fin.ext ?_)
  have h := idx_facts t
  match a with
  | ⟨0, _⟩ => show win0_9.index t (0 : Fin 2) * 1 + 1 * (y 0).val = (y 0).val; omega
  | ⟨1, _⟩ => show win0_9.index t (1 : Fin 2) * 512 + 1 * (y 1).val = (y 1).val; omega
theorem blk9 (c : Dev nD) (t : Fin cfg0.N) :
    (fun k : Fin 512 => iblk m c 9 t (ix2 (0 : Fin 1) k)) = fun k => m ((c : Thread nD τ).loc main_arg6) (ix1 k) := by
  funext k
  rw [iblk9, V_main_v11]
  exact shapeCast_a_1a_apply _ _ _ _
/-- Window 10's block is its whole array at every point. -/
theorem iblk10 (c : Dev nD) (t : Fin cfg0.N) (y : S1x512.Idx) : iblk m c 10 t y = V m c main_v12 y := by
  show V m c main_v12 (((cfg0.win 10).blk t).view.emb y) = V m c main_v12 y
  refine congrArg _ (funext fun a => Fin.ext ?_)
  have h := idx_facts t
  match a with
  | ⟨0, _⟩ => show win0_10.index t (0 : Fin 2) * 1 + 1 * (y 0).val = (y 0).val; omega
  | ⟨1, _⟩ => show win0_10.index t (1 : Fin 2) * 512 + 1 * (y 1).val = (y 1).val; omega
theorem blk10 (c : Dev nD) (t : Fin cfg0.N) :
    (fun k : Fin 512 => iblk m c 10 t (ix2 (0 : Fin 1) k)) = fun k => m ((c : Thread nD τ).loc main_arg7) (ix1 k) := by
  funext k
  rw [iblk10, V_main_v12]
  exact shapeCast_a_1a_apply _ _ _ _
/-- Window 11's block is its whole array at every point. -/
theorem iblk11 (c : Dev nD) (t : Fin cfg0.N) (y : S512x512.Idx) : iblk m c 11 t y = V m c main_v19 y := by
  show V m c main_v19 (((cfg0.win 11).blk t).view.emb y) = V m c main_v19 y
  refine congrArg _ (funext fun a => Fin.ext ?_)
  have h := idx_facts t
  match a with
  | ⟨0, _⟩ => show win0_11.index t (0 : Fin 2) * 512 + 1 * (y 0).val = (y 0).val; omega
  | ⟨1, _⟩ => show win0_11.index t (1 : Fin 2) * 512 + 1 * (y 1).val = (y 1).val; omega
theorem blk11 (c : Dev nD) (t : Fin cfg0.N) :
    (fun (o : Fin 512) (k : Fin 512) => iblk m c 11 t (ix2 o k)) = fun o k => m ((c : Thread nD τ).loc main_arg12) (ix2 o k) := by
  funext o k
  rw [iblk11, V_main_v19]
  rfl
/-- Window 12's block is its whole array at every point. -/
theorem iblk12 (c : Dev nD) (t : Fin cfg0.N) (y : S1x512.Idx) : iblk m c 12 t y = V m c main_v15 y := by
  show V m c main_v15 (((cfg0.win 12).blk t).view.emb y) = V m c main_v15 y
  refine congrArg _ (funext fun a => Fin.ext ?_)
  have h := idx_facts t
  match a with
  | ⟨0, _⟩ => show win0_12.index t (0 : Fin 2) * 1 + 1 * (y 0).val = (y 0).val; omega
  | ⟨1, _⟩ => show win0_12.index t (1 : Fin 2) * 512 + 1 * (y 1).val = (y 1).val; omega
theorem blk12 (c : Dev nD) (t : Fin cfg0.N) :
    (fun k : Fin 512 => iblk m c 12 t (ix2 (0 : Fin 1) k)) = fun k => m ((c : Thread nD τ).loc main_arg13) (ix1 k) := by
  funext k
  rw [iblk12, V_main_v15]
  exact shapeCast_a_1a_apply _ _ _ _
/-- Window 13's block is its whole array at every point. -/
theorem iblk13 (c : Dev nD) (t : Fin cfg0.N) (y : S1x512.Idx) : iblk m c 13 t y = V m c main_v20 y := by
  show V m c main_v20 (((cfg0.win 13).blk t).view.emb y) = V m c main_v20 y
  refine congrArg _ (funext fun a => Fin.ext ?_)
  have h := idx_facts t
  match a with
  | ⟨0, _⟩ => show win0_13.index t (0 : Fin 2) * 1 + 1 * (y 0).val = (y 0).val; omega
  | ⟨1, _⟩ => show win0_13.index t (1 : Fin 2) * 512 + 1 * (y 1).val = (y 1).val; omega
theorem blk13 (c : Dev nD) (t : Fin cfg0.N) :
    (fun k : Fin 512 => iblk m c 13 t (ix2 (0 : Fin 1) k)) = fun k => m ((c : Thread nD τ).loc main_arg14) (ix2 (0 : Fin 1) k) := by
  funext k
  rw [iblk13, V_main_v20]
  rfl
/-- Window 14's block is its whole array at every point. -/
theorem iblk14 (c : Dev nD) (t : Fin cfg0.N) (y : S1x1.Idx) : iblk m c 14 t y = V m c main_v16 y := by
  show V m c main_v16 (((cfg0.win 14).blk t).view.emb y) = V m c main_v16 y
  refine congrArg _ (funext fun a => Fin.ext ?_)
  have h := idx_facts t
  match a with
  | ⟨0, _⟩ => show win0_14.index t (0 : Fin 2) * 1 + 1 * (y 0).val = (y 0).val; omega
  | ⟨1, _⟩ => show win0_14.index t (1 : Fin 2) * 1 + 1 * (y 1).val = (y 1).val; omega
theorem blk14 (c : Dev nD) (t : Fin cfg0.N) :
    iblk m c 14 t (ix2 (0 : Fin 1) (0 : Fin 1)) = m ((c : Thread nD τ).loc main_arg15) (ix1 (0 : Fin 1)) := by
  rw [iblk14, V_main_v16]
  exact shapeCast_a_1a_apply _ _ _ _

/-! ## What a point writes back, the cover, and the array after the run -/

/-- The array the region leaves in the result buffer, from what the region found. -/
abbrev resultOf (c : Dev nD) : S32768x1.Idx → EReal :=
  result (V m c main_v6) (m ((c : Thread nD τ).loc main_arg2)) (m ((c : Thread nD τ).loc main_arg3)) (m ((c : Thread nD τ).loc main_arg8)) (m ((c : Thread nD τ).loc main_arg9)) (m ((c : Thread nD τ).loc main_arg4)) (m ((c : Thread nD τ).loc main_arg5)) (m ((c : Thread nD τ).loc main_arg10)) (m ((c : Thread nD τ).loc main_arg11)) (m ((c : Thread nD τ).loc main_arg6)) (m ((c : Thread nD τ).loc main_arg7)) (m ((c : Thread nD τ).loc main_arg12)) (m ((c : Thread nD τ).loc main_arg13)) (m ((c : Thread nD τ).loc main_arg14)) (m ((c : Thread nD τ).loc main_arg15))

/-- Point `t` writes back block `t` of `resultOf`. -/
theorem flushed_eq (c : Dev nD) (t : Fin cfg0.N) :
    (dats m 0 c).flushed 15 t = ((cfg0.win 15).blk t).view.read (Elt Ideal) (resultOf m c) := by
  show (cfg0.win 15).cut (grid0.coords t) ((dats m 0 c).after 15 t) = _
  rw [after15]
  unfold outBlock
  rw [View.canon_unit_zero hz]
  simp only [View.ld_unit_zero (S := S512x2080) hz, View.ld_unit_zero (S := S1x2080) hz, View.ld_unit_zero (S := S1x512) hz, View.ld_unit_zero (S := S512x512) hz, View.ld_unit_zero (S := S1x1) hz]
  funext y
  obtain ⟨p, q, rfl⟩ : ∃ (p : Fin 512) (q : Fin 1), y = ix2 p q := ⟨y 0, y 1, eq_ix2 y⟩
  obtain rfl : q = 0 := Subsingleton.elim _ _
  refine (Cert.KernelIdeal.Row.blockOut_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) p).trans ?_
  rw [blk0 m c t p, blk1 m c t, blk2 m c t, blk3 m c t, blk4 m c t, blk5 m c t, blk6 m c t, blk7 m c t, blk8 m c t, blk9 m c t, blk10 m c t, blk11 m c t, blk12 m c t, blk13 m c t, blk14 m c t]
  rfl

theorem mem_blk (t : Fin cfg0.N) (i : S32768x1.Idx) :
    i ∈ ((cfg0.win 15).blk t).view.set ↔ ∀ a : Fin 2, win0_15.index t a * S512x1.size a ≤ (i a).val ∧ (i a).val < win0_15.index t a * S512x1.size a + S512x1.size a := by
  show i ∈ ((View.whole main_v21).slice (win0_15.rect t)).set ↔ _
  rw [View.set_slice_whole, Rect.mem_set_unit]
  exact Iff.rfl

/-- Row `r` is in the block of the point whose row block is `r / 512`. -/
theorem cover (i : S32768x1.Idx) : ∃ t : Fin cfg0.N, (cfg0.win 15).flush t = true ∧ i ∈ ((cfg0.win 15).blk t).view.set := by
  have hi0 : (i 0).val < 32768 := (i 0).isLt
  have hi1 : (i 1).val < 1 := (i 1).isLt
  obtain ⟨t, ht⟩ := idx_onto ⟨(i 0).val / 512, by omega⟩
  have q0 : win0_15.index t (0 : Fin 2) = (i 0).val / 512 := congrFun ht 0
  have q1 : win0_15.index t (1 : Fin 2) = 0 := congrFun ht 1
  refine ⟨t, flush0_15 t, ?_⟩
  rw [mem_blk]
  intro a
  match a with
  | ⟨0, _⟩ => show win0_15.index t (0 : Fin 2) * 512 ≤ (i 0).val ∧ (i 0).val < win0_15.index t (0 : Fin 2) * 512 + 512; omega
  | ⟨1, _⟩ => show win0_15.index t (1 : Fin 2) * 1 ≤ (i 1).val ∧ (i 1).val < win0_15.index t (1 : Fin 2) * 1 + 1; omega

/-- The result buffer after the run. -/
theorem final (c : Dev nD) : (dats m 0 c).arrAt 15 cfg0.N = resultOf m c :=
  (dats m 0 c).arrAt_eq_of_cover 15 (resultOf m c) (fun t _ => flushed_eq m c t) cover

/-- The run, read: the result buffer ends at `resultOf`, the argument arrays as launched. -/
theorem run : θ_run defs (onTc (τ := τ) (main (F := Ideal))) ⟨m, fun _ => 0, ρ⟩ fun r => ∀ c : Dev nD,
      r.2.mem ((c.tc : Thread nD τ).loc main_v21) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun r h c => ⟨((h c).1 15).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c)⟩)
    (run_main m ρ)

end Cert.KernelIdeal.HandValue

end
-- ==== Proof.RefStage.lean ====
/-
  One normalise-and-map stage of the reference, read at one entry.

  The reference computes a stage on the whole [rows, n] array at once: the row sums kept as a column,
  divided by the float length; the deviations; the column of reciprocal square roots of the variances
  plus the offset; scale and shift laid along every row; the product with the transposed weight; the bias
  laid along every row; tanh. Read at entry (r, c) every one of these is the corresponding extended-real
  expression of row r alone, which is the specification's block of that row at c. The lemmas are
  stated for any row count m, input length n and output length o.
-/
import Idealize.ShloMosaic.Lib.StackMember
import Idealize.ShloMosaic.Lib.IdealHost
import Idealize.ShloMosaic.Lib.ValueLayout
import proofs.«150316_j43980465111579_2_alg».proof.Proof.Spec

noncomputable section

namespace Cert.ReferenceIdeal.Row

open Idealize.ShloMosaic Idealize.ShloMosaic.ValueIdx Idealize.ShloMosaic.StackMember
open scoped BigOperators

variable {m n o : Nat} {α : Type}

/-! ## Layout operations at an index -/

/-- A vector of m entries kept as an [m, 1] column reads its entry r at (r, 0). -/
theorem column_apply (h : (⟨1, ![m]⟩ : Shape).BroadcastsInDim ⟨2, ![m, 1]⟩ ![0]) (v : (⟨1, ![m]⟩ : Shape).Idx → α) (r : Fin m) :
    broadcastInDim ⟨2, ![m, 1]⟩ ![0] h v (ix2 r (0 : Fin 1)) = v (ix1 r) := by
  refine broadcastInDim_apply ![0] h v (ix2 r (0 : Fin 1)) (ix1 r) ?_
  intro a
  match a with
  | ⟨0, _⟩ =>
    show r.val = if m = 1 then 0 else r.val
    split
    · have := r.isLt; omega
    · rfl

/-- An [m, 1] column laid across n columns reads its entry (r, 0) at (r, k). -/
theorem acrossRow_apply (h : (⟨2, ![m, 1]⟩ : Shape).BroadcastsInDim ⟨2, ![m, n]⟩ ![0, 1]) (y : (⟨2, ![m, 1]⟩ : Shape).Idx → α)
    (r : Fin m) (k : Fin n) : broadcastInDim ⟨2, ![m, n]⟩ ![0, 1] h y (ix2 r k) = y (ix2 r (0 : Fin 1)) := by
  refine broadcastInDim_apply ![0, 1] h y (ix2 r k) (ix2 r (0 : Fin 1)) ?_
  intro a
  match a with
  | ⟨0, _⟩ =>
    show r.val = if m = 1 then 0 else r.val
    split
    · have := r.isLt; omega
    · rfl
  | ⟨1, _⟩ =>
    show (0 : ℕ) = if (1 : ℕ) = 1 then 0 else k.val
    simp

/-- A vector of n entries as a one-row matrix reads its entry k at (0, k). -/
theorem oneRow_apply (h : (⟨1, ![n]⟩ : Shape).BroadcastsInDim ⟨2, ![1, n]⟩ ![1]) (g : (⟨1, ![n]⟩ : Shape).Idx → α) (k : Fin n) :
    broadcastInDim ⟨2, ![1, n]⟩ ![1] h g (ix2 (0 : Fin 1) k) = g (ix1 k) := by
  refine broadcastInDim_apply ![1] h g (ix2 (0 : Fin 1) k) (ix1 k) ?_
  intro a
  match a with
  | ⟨0, _⟩ =>
    show k.val = if n = 1 then 0 else k.val
    split
    · have := k.isLt; omega
    · rfl

/-- A vector of n entries laid along each of m rows reads its entry k at (r, k). -/
theorem everyRow_apply (h1 : (⟨1, ![n]⟩ : Shape).BroadcastsInDim ⟨2, ![1, n]⟩ ![1])
    (h2 : (⟨2, ![1, n]⟩ : Shape).BroadcastsInDim ⟨2, ![m, n]⟩ ![0, 1]) (g : (⟨1, ![n]⟩ : Shape).Idx → α) (r : Fin m) (k : Fin n) :
    broadcastInDim ⟨2, ![m, n]⟩ ![0, 1] h2 (broadcastInDim ⟨2, ![1, n]⟩ ![1] h1 g) (ix2 r k) = g (ix1 k) :=
  (broadcastInDim_oneRow_apply h2 _ r k).trans (oneRow_apply h1 g k)

/-- A float constant broadcast from a scalar reads the constant's value everywhere. -/
theorem scalarConst_apply {T : Shape} (h : (⟨0, ![]⟩ : Shape).BroadcastsInDim T ![]) (w : BitVec 32) (j : T.Idx) :
    broadcastInDim T ![] h (constant (F := Ideal) ⟨0, ![]⟩ .f32 w) j = Ideal.ofBits .f32 w :=
  broadcastInDim_scalar_apply h _ j

/-! ## A row's sum and mean -/

/-- The sum over axis 1 from the initial value zero, at row r, is the row's sum. -/
theorem rowSum_apply (X : FVec Ideal ⟨2, ![m, n]⟩ .f32) (hred : (⟨2, ![m, n]⟩ : Shape).ReducesTo [1] ⟨1, ![m]⟩)
    (hS : 0 < (⟨0, ![]⟩ : Shape).numel) (r : Fin m) :
    Host.reduceAdd (F := Ideal) X (constant (F := Ideal) ⟨0, ![]⟩ .f32 0x00000000#32) hred hS (ix1 r) = ∑ k : Fin n, X (ix2 r k) := by
  have h : (⟨2, ![m, n]⟩ : Shape).Reduces [1] ⟨1, ![m]⟩ := ⟨hred.1, Nat.one_pos, hred.2⟩
  rw [hostReduceAdd_apply, Ideal.hostReduceAdd_single hred h, constant_apply, Ideal.ofBits_zero_f32, zero_add]
  refine Finset.sum_congr rfl fun k _ => congrArg X (funext fun a => Fin.ext ?_)
  match a with
  | ⟨0, _⟩ => rfl
  | ⟨1, _⟩ => rfl

/-- The column of row means, at (r, 0), is the specification's mean of row r. -/
theorem meanColumn_apply (X : FVec Ideal ⟨2, ![m, n]⟩ .f32) (len : BitVec 32)
    (hred : (⟨2, ![m, n]⟩ : Shape).ReducesTo [1] ⟨1, ![m]⟩) (hS : 0 < (⟨0, ![]⟩ : Shape).numel)
    (hcol : (⟨1, ![m]⟩ : Shape).BroadcastsInDim ⟨2, ![m, 1]⟩ ![0]) (hsc : (⟨0, ![]⟩ : Shape).BroadcastsInDim ⟨2, ![m, 1]⟩ ![])
    (r : Fin m) :
    Host.divf (F := Ideal) (broadcastInDim ⟨2, ![m, 1]⟩ ![0] hcol
        (Host.reduceAdd (F := Ideal) X (constant (F := Ideal) ⟨0, ![]⟩ .f32 0x00000000#32) hred hS))
      (broadcastInDim ⟨2, ![m, 1]⟩ ![] hsc (constant (F := Ideal) ⟨0, ![]⟩ .f32 len)) (ix2 r (0 : Fin 1))
      = Cert.CriticSpec.mean (Ideal.ofBits .f32 len) (fun k => X (ix2 r k)) := by
  rw [hostDivf_apply, column_apply, rowSum_apply, scalarConst_apply]
  rfl

/-! ## The reciprocal standard deviation, the product with the transposed weight -/

/-- The column of reciprocal square roots of "variance plus offset", at (r, 0), written on row r: the
    variance is the mean of the squares of the deviations Y, and Y is X less its row mean. -/
theorem rstdColumn_apply (X Y : FVec Ideal ⟨2, ![m, n]⟩ .f32) (len : BitVec 32)
    (hY : ∀ (r : Fin m) (k : Fin n),
      Y (ix2 r k) = X (ix2 r k) - Cert.CriticSpec.mean (Ideal.ofBits .f32 len) (fun k => X (ix2 r k)))
    (hred : (⟨2, ![m, n]⟩ : Shape).ReducesTo [1] ⟨1, ![m]⟩) (hS : 0 < (⟨0, ![]⟩ : Shape).numel)
    (hcol : (⟨1, ![m]⟩ : Shape).BroadcastsInDim ⟨2, ![m, 1]⟩ ![0]) (hsc : (⟨0, ![]⟩ : Shape).BroadcastsInDim ⟨2, ![m, 1]⟩ ![])
    (r : Fin m) :
    Host.rsqrt (F := Ideal) (addf
        (Host.divf (F := Ideal) (broadcastInDim ⟨2, ![m, 1]⟩ ![0] hcol
            (Host.reduceAdd (F := Ideal) (mulf Y Y) (constant (F := Ideal) ⟨0, ![]⟩ .f32 0x00000000#32) hred hS))
          (broadcastInDim ⟨2, ![m, 1]⟩ ![] hsc (constant (F := Ideal) ⟨0, ![]⟩ .f32 len)))
        (broadcastInDim ⟨2, ![m, 1]⟩ ![] hsc (constant (F := Ideal) ⟨0, ![]⟩ .f32 0x3727C5AC#32))) (ix2 r (0 : Fin 1))
      = Ideal.rsqrt (Ideal.div (∑ k : Fin n,
            (X (ix2 r k) - Cert.CriticSpec.mean (Ideal.ofBits .f32 len) (fun k => X (ix2 r k)))
              * (X (ix2 r k) - Cert.CriticSpec.mean (Ideal.ofBits .f32 len) (fun k => X (ix2 r k))))
          (Ideal.ofBits .f32 len) + Cert.CriticSpec.varEps) := by
  show Ideal.rsqrt (Ideal.div
      (broadcastInDim ⟨2, ![m, 1]⟩ ![0] hcol
        (Host.reduceAdd (F := Ideal) (mulf Y Y) (constant (F := Ideal) ⟨0, ![]⟩ .f32 0x00000000#32) hred hS) (ix2 r (0 : Fin 1)))
      (broadcastInDim ⟨2, ![m, 1]⟩ ![] hsc (constant (F := Ideal) ⟨0, ![]⟩ .f32 len) (ix2 r (0 : Fin 1)))
      + broadcastInDim ⟨2, ![m, 1]⟩ ![] hsc (constant (F := Ideal) ⟨0, ![]⟩ .f32 0x3727C5AC#32) (ix2 r (0 : Fin 1))) = _
  rw [column_apply, rowSum_apply, scalarConst_apply, scalarConst_apply]
  simp only [mulf_apply, hY]

/-- The product with the transposed weight: entry (r, c) pairs row r of A with row c of W. -/
theorem dotTransposed_apply (A : FVec Ideal ⟨2, ![m, n]⟩ .f32) (W : FVec Ideal ⟨2, ![o, n]⟩ .f32)
    (htr : (⟨2, ![o, n]⟩ : Shape).Transposes [1, 0] ⟨2, ![n, o]⟩) (r : Fin m) (c : Fin o) :
    Host.dotGeneral (F := Ideal) (DotDims.plain m n o) none A (transpose ⟨2, ![n, o]⟩ [1, 0] W htr) (ix2 r c)
      = ∑ k : Fin n, A (ix2 r k) * W (ix2 c k) := by
  refine (dotGeneral_plain_apply none A (transpose ⟨2, ![n, o]⟩ [1, 0] W htr) r c).trans
    (Finset.sum_congr rfl fun k _ => ?_)
  rw [transpose_ix2_apply]

/-! ## One stage -/

/-- One stage at entry (r, c) is the specification's block of row r at c. M is the column of row means and Y
    the array of deviations, each known entry by entry. -/
theorem stage_apply (X Y : FVec Ideal ⟨2, ![m, n]⟩ .f32) (M : FVec Ideal ⟨2, ![m, 1]⟩ .f32) (len : BitVec 32)
    (g b : FVec Ideal ⟨1, ![n]⟩ .f32) (W : FVec Ideal ⟨2, ![o, n]⟩ .f32) (bias : FVec Ideal ⟨1, ![o]⟩ .f32)
    (hM : ∀ r : Fin m, M (ix2 r (0 : Fin 1)) = Cert.CriticSpec.mean (Ideal.ofBits .f32 len) (fun k => X (ix2 r k)))
    (hY : ∀ (r : Fin m) (k : Fin n),
      Y (ix2 r k) = X (ix2 r k) - Cert.CriticSpec.mean (Ideal.ofBits .f32 len) (fun k => X (ix2 r k)))
    (D : DotDims ⟨2, ![m, n]⟩ ⟨2, ![n, o]⟩ ⟨2, ![m, o]⟩) (hD : D = DotDims.plain m n o)
    (hred : (⟨2, ![m, n]⟩ : Shape).ReducesTo [1] ⟨1, ![m]⟩) (hS : 0 < (⟨0, ![]⟩ : Shape).numel)
    (hcol : (⟨1, ![m]⟩ : Shape).BroadcastsInDim ⟨2, ![m, 1]⟩ ![0]) (hsc : (⟨0, ![]⟩ : Shape).BroadcastsInDim ⟨2, ![m, 1]⟩ ![])
    (hacross : (⟨2, ![m, 1]⟩ : Shape).BroadcastsInDim ⟨2, ![m, n]⟩ ![0, 1])
    (h1n : (⟨1, ![n]⟩ : Shape).BroadcastsInDim ⟨2, ![1, n]⟩ ![1]) (hrn : (⟨2, ![1, n]⟩ : Shape).BroadcastsInDim ⟨2, ![m, n]⟩ ![0, 1])
    (htr : (⟨2, ![o, n]⟩ : Shape).Transposes [1, 0] ⟨2, ![n, o]⟩)
    (h1o : (⟨1, ![o]⟩ : Shape).BroadcastsInDim ⟨2, ![1, o]⟩ ![1]) (hro : (⟨2, ![1, o]⟩ : Shape).BroadcastsInDim ⟨2, ![m, o]⟩ ![0, 1])
    (r : Fin m) (c : Fin o) :
    Host.tanh (F := Ideal) (addf (Host.dotGeneral (F := Ideal) D none
          (addf (mulf (mulf (subf X (broadcastInDim ⟨2, ![m, n]⟩ ![0, 1] hacross M))
                (broadcastInDim ⟨2, ![m, n]⟩ ![0, 1] hacross (Host.rsqrt (F := Ideal) (addf
                  (Host.divf (F := Ideal) (broadcastInDim ⟨2, ![m, 1]⟩ ![0] hcol
                      (Host.reduceAdd (F := Ideal) (mulf Y Y) (constant (F := Ideal) ⟨0, ![]⟩ .f32 0x00000000#32) hred hS))
                    (broadcastInDim ⟨2, ![m, 1]⟩ ![] hsc (constant (F := Ideal) ⟨0, ![]⟩ .f32 len)))
                  (broadcastInDim ⟨2, ![m, 1]⟩ ![] hsc (constant (F := Ideal) ⟨0, ![]⟩ .f32 0x3727C5AC#32))))))
              (broadcastInDim ⟨2, ![m, n]⟩ ![0, 1] hrn (broadcastInDim ⟨2, ![1, n]⟩ ![1] h1n g)))
            (broadcastInDim ⟨2, ![m, n]⟩ ![0, 1] hrn (broadcastInDim ⟨2, ![1, n]⟩ ![1] h1n b)))
          (transpose ⟨2, ![n, o]⟩ [1, 0] W htr))
        (broadcastInDim ⟨2, ![m, o]⟩ ![0, 1] hro (broadcastInDim ⟨2, ![1, o]⟩ ![1] h1o bias))) (ix2 r c)
      = Cert.CriticSpec.block (Ideal.ofBits .f32 len) (fun k => X (ix2 r k)) (fun k => g (ix1 k)) (fun k => b (ix1 k))
          (fun c k => W (ix2 c k)) (fun c => bias (ix1 c)) c := by
  subst hD
  show Ideal.tanh (Host.dotGeneral (F := Ideal) (DotDims.plain m n o) none _ (transpose ⟨2, ![n, o]⟩ [1, 0] W htr) (ix2 r c)
      + broadcastInDim ⟨2, ![m, o]⟩ ![0, 1] hro (broadcastInDim ⟨2, ![1, o]⟩ ![1] h1o bias) (ix2 r c)) = _
  rw [dotTransposed_apply, everyRow_apply]
  unfold Cert.CriticSpec.block Cert.CriticSpec.dense
  refine congrArg (fun s => Ideal.tanh (s + bias (ix1 c))) (Finset.sum_congr rfl fun k _ => congrArg (· * W (ix2 c k)) ?_)
  rw [addf_apply, mulf_apply, mulf_apply, subf_apply, acrossRow_apply, acrossRow_apply, everyRow_apply, everyRow_apply, hM,
    rstdColumn_apply X Y len hY]
  rfl

/-! ## The last affine map -/

/-- The last affine map to one number, under tanh, at row r: the row of H against the one weight row, plus the
    one bias entry. -/
theorem lastMap_apply (H : FVec Ideal ⟨2, ![m, n]⟩ .f32) (wout : FVec Ideal ⟨2, ![1, n]⟩ .f32) (bout : FVec Ideal ⟨1, ![1]⟩ .f32)
    (D : DotDims ⟨2, ![m, n]⟩ ⟨2, ![n, 1]⟩ ⟨2, ![m, 1]⟩) (hD : D = DotDims.plain m n 1)
    (htr : (⟨2, ![1, n]⟩ : Shape).Transposes [1, 0] ⟨2, ![n, 1]⟩)
    (h11 : (⟨1, ![1]⟩ : Shape).BroadcastsInDim ⟨2, ![1, 1]⟩ ![1]) (hr1 : (⟨2, ![1, 1]⟩ : Shape).BroadcastsInDim ⟨2, ![m, 1]⟩ ![0, 1])
    (r : Fin m) :
    Host.tanh (F := Ideal) (addf (Host.dotGeneral (F := Ideal) D none H (transpose ⟨2, ![n, 1]⟩ [1, 0] wout htr))
        (broadcastInDim ⟨2, ![m, 1]⟩ ![0, 1] hr1 (broadcastInDim ⟨2, ![1, 1]⟩ ![1] h11 bout))) (ix2 r (0 : Fin 1))
      = Ideal.tanh ((∑ k : Fin n, H (ix2 r k) * wout (ix2 (0 : Fin 1) k)) + bout (ix1 (0 : Fin 1))) := by
  subst hD
  show Ideal.tanh (Host.dotGeneral (F := Ideal) (DotDims.plain m n 1) none H (transpose ⟨2, ![n, 1]⟩ [1, 0] wout htr)
        (ix2 r (0 : Fin 1))
      + broadcastInDim ⟨2, ![m, 1]⟩ ![0, 1] hr1 (broadcastInDim ⟨2, ![1, 1]⟩ ![1] h11 bout) (ix2 r (0 : Fin 1))) = _
  rw [dotTransposed_apply, everyRow_apply]

end Cert.ReferenceIdeal.Row

end
-- ==== Proof.RefRow.lean ====
/-
  The reference's result read at one row.

  The reference's run leaves in its result buffer one composed term of the argument arrays. Read at row r,
  that term is the specification's network applied to row r of the concatenated feature array: each of the
  three normalise-and-map stages, read at (r, c), is the specification's block of the previous stage's row,
  and the last affine map under tanh is the specification's last line. The feature array itself is never opened.
-/
import proofs.«150316_j43980465111579_2_alg».proof.Proof.Gen.ReferenceIdeal.Run
import proofs.«150316_j43980465111579_2_alg».proof.Proof.RefStage

noncomputable section

namespace Cert.ReferenceIdeal.Row

open Cert.ReferenceIdeal Cert.ReferenceIdeal.Gen Idealize.ShloMosaic Idealize.ShloMosaic.TcCoe Idealize.SL.Sem
open Idealize.ShloMosaic.StableHlo Idealize.ShloMosaic.ValueIdx

/-- The result buffer's contents as a function of the arguments' contents. -/
def refOut (V0 : Valuation τ sig (Elt Ideal)) : (⟨S32768x1, .f32⟩ : BufTy).Contents (Elt Ideal) :=
  Host.tanh (F := Ideal) (addf (Host.dotGeneral (F := Ideal) (φ₁ := .f32) (φ₂ := .f32) dot_S32768x512_S512x1_S32768x1_1_0_0_1_n_n none (Host.tanh (F := Ideal) (addf (Host.dotGeneral (F := Ideal) (φ₁ := .f32) (φ₂ := .f32) dot_S32768x512_S512x512_S32768x512_1_0_0_1_n_n none (addf (mulf (mulf (subf (Value.res_main_v66 (F := Ideal) V0 : FVec Ideal S32768x512 .f32) (broadcastInDim S32768x512 ![0, 1] bcast_S32768x1_S32768x512_0_1 (Value.res_main_v70 (F := Ideal) V0 : FVec Ideal S32768x1 .f32))) (broadcastInDim S32768x512 ![0, 1] bcast_S32768x1_S32768x512_0_1 (Host.rsqrt (F := Ideal) (addf (Host.divf (F := Ideal) (broadcastInDim S32768x1 ![0] bcast_S32768_S32768x1_0 (Host.reduceAdd (F := Ideal) (mulf (Value.res_main_v72 (F := Ideal) V0 : FVec Ideal S32768x512 .f32) (Value.res_main_v72 (F := Ideal) V0 : FVec Ideal S32768x512 .f32)) (constant (F := Ideal) S_ .f32 0x00000000#32) reducesTo_S32768x512_S32768_d1 h_S_)) (broadcastInDim S32768x1 ![] bcast_S_S32768x1 (constant (F := Ideal) S_ .f32 0x44000000#32))) (broadcastInDim S32768x1 ![] bcast_S_S32768x1 (constant (F := Ideal) S_ .f32 0x3727C5AC#32)))))) (broadcastInDim S32768x512 ![0, 1] bcast_S1x512_S32768x512_0_1 (broadcastInDim S1x512 ![1] bcast_S512_S1x512_1 (V0 (Proc.devRef .tc main_arg6) : FVec Ideal S512 .f32)))) (broadcastInDim S32768x512 ![0, 1] bcast_S1x512_S32768x512_0_1 (broadcastInDim S1x512 ![1] bcast_S512_S1x512_1 (V0 (Proc.devRef .tc main_arg7) : FVec Ideal S512 .f32)))) (transpose S512x512 [1, 0] (V0 (Proc.devRef .tc main_arg12) : FVec Ideal S512x512 .f32) transposes_S512x512_S512x512_1_0)) (broadcastInDim S32768x512 ![0, 1] bcast_S1x512_S32768x512_0_1 (broadcastInDim S1x512 ![1] bcast_S512_S1x512_1 (V0 (Proc.devRef .tc main_arg13) : FVec Ideal S512 .f32))))) (transpose S512x1 [1, 0] (V0 (Proc.devRef .tc main_arg14) : FVec Ideal S1x512 .f32) transposes_S1x512_S512x1_1_0)) (broadcastInDim S32768x1 ![0, 1] bcast_S1x1_S32768x1_0_1 (broadcastInDim S1x1 ![1] bcast_S1_S1x1_1 (V0 (Proc.devRef .tc main_arg15) : FVec Ideal S1 .f32))))

set_option maxRecDepth 8192 in
/-- Every weakly fair execution of the reference ends with the result buffer at refOut of the launch contents
    and the arguments unchanged. -/
theorem run' (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v102) = refOut (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  Value.run (F := Ideal) m ρ

/-! ## The three hidden rows -/

/-- Row r of the feature array. -/
def featRow (V0 : Valuation τ sig (Elt Ideal)) (r : Fin 32768) : Fin 2080 → EReal :=
  fun k => Value.res_main_v6 (F := Ideal) V0 (ix2 r k)

/-- Row r after the first stage. -/
def hid1 (V0 : Valuation τ sig (Elt Ideal)) (r : Fin 32768) : Fin 512 → EReal :=
  Cert.CriticSpec.block Cert.CriticSpec.len2080 (featRow V0 r)
    (fun k => V0 (Proc.devRef .tc main_arg2) (ix1 k)) (fun k => V0 (Proc.devRef .tc main_arg3) (ix1 k))
    (fun c k => V0 (Proc.devRef .tc main_arg8) (ix2 c k)) (fun c => V0 (Proc.devRef .tc main_arg9) (ix1 c))

/-- Row r after the second stage. -/
def hid2 (V0 : Valuation τ sig (Elt Ideal)) (r : Fin 32768) : Fin 512 → EReal :=
  Cert.CriticSpec.block Cert.CriticSpec.len512 (hid1 V0 r)
    (fun k => V0 (Proc.devRef .tc main_arg4) (ix1 k)) (fun k => V0 (Proc.devRef .tc main_arg5) (ix1 k))
    (fun c k => V0 (Proc.devRef .tc main_arg10) (ix2 c k)) (fun c => V0 (Proc.devRef .tc main_arg11) (ix1 c))

/-- Row r after the third stage. -/
def hid3 (V0 : Valuation τ sig (Elt Ideal)) (r : Fin 32768) : Fin 512 → EReal :=
  Cert.CriticSpec.block Cert.CriticSpec.len512 (hid2 V0 r)
    (fun k => V0 (Proc.devRef .tc main_arg6) (ix1 k)) (fun k => V0 (Proc.devRef .tc main_arg7) (ix1 k))
    (fun c k => V0 (Proc.devRef .tc main_arg12) (ix2 c k)) (fun c => V0 (Proc.devRef .tc main_arg13) (ix1 c))

/-! ## Stage one -/

theorem v10_apply (V0 : Valuation τ sig (Elt Ideal)) (r : Fin 32768) :
    Value.res_main_v10 (F := Ideal) V0 (ix2 r (0 : Fin 1)) = Cert.CriticSpec.mean Cert.CriticSpec.len2080 (featRow V0 r) := by
  unfold Value.res_main_v10
  exact meanColumn_apply (Value.res_main_v6 (F := Ideal) V0) 0x45020000#32 _ _ _ _ r

theorem v12_apply (V0 : Valuation τ sig (Elt Ideal)) (r : Fin 32768) (k : Fin 2080) :
    Value.res_main_v12 (F := Ideal) V0 (ix2 r k)
      = featRow V0 r k - Cert.CriticSpec.mean Cert.CriticSpec.len2080 (featRow V0 r) := by
  unfold Value.res_main_v12
  rw [subf_apply, acrossRow_apply, v10_apply]
  rfl

theorem v36_apply (V0 : Valuation τ sig (Elt Ideal)) (r : Fin 32768) (c : Fin 512) :
    Value.res_main_v36 (F := Ideal) V0 (ix2 r c) = hid1 V0 r c := by
  unfold Value.res_main_v36
  exact stage_apply (Value.res_main_v6 (F := Ideal) V0) (Value.res_main_v12 (F := Ideal) V0) (Value.res_main_v10 (F := Ideal) V0)
    0x45020000#32 _ _ _ _ (v10_apply V0) (v12_apply V0) _ rfl _ _ _ _ _ _ _ _ _ _ r c

/-! ## Stage two -/

/-- Row r of the first stage's result array. -/
def row36 (V0 : Valuation τ sig (Elt Ideal)) (r : Fin 32768) : Fin 512 → EReal :=
  fun k => Value.res_main_v36 (F := Ideal) V0 (ix2 r k)

theorem v40_apply (V0 : Valuation τ sig (Elt Ideal)) (r : Fin 32768) :
    Value.res_main_v40 (F := Ideal) V0 (ix2 r (0 : Fin 1))
      = Cert.CriticSpec.mean Cert.CriticSpec.len512 (row36 V0 r) := by
  unfold Value.res_main_v40
  exact meanColumn_apply (Value.res_main_v36 (F := Ideal) V0) 0x44000000#32 _ _ _ _ r

theorem v42_apply (V0 : Valuation τ sig (Elt Ideal)) (r : Fin 32768) (k : Fin 512) :
    Value.res_main_v42 (F := Ideal) V0 (ix2 r k)
      = row36 V0 r k - Cert.CriticSpec.mean Cert.CriticSpec.len512 (row36 V0 r) := by
  unfold Value.res_main_v42
  rw [subf_apply, acrossRow_apply, v40_apply]
  rfl

theorem v66_apply (V0 : Valuation τ sig (Elt Ideal)) (r : Fin 32768) (c : Fin 512) :
    Value.res_main_v66 (F := Ideal) V0 (ix2 r c) = hid2 V0 r c := by
  unfold Value.res_main_v66
  refine (stage_apply (Value.res_main_v36 (F := Ideal) V0) (Value.res_main_v42 (F := Ideal) V0)
    (Value.res_main_v40 (F := Ideal) V0) 0x44000000#32 _ _ _ _ (v40_apply V0) (v42_apply V0) _ rfl _ _ _ _ _ _ _ _ _ _ r c).trans ?_
  rw [show (fun k => (Value.res_main_v36 (F := Ideal) V0 : FVec Ideal S32768x512 .f32) (ix2 r k)) = hid1 V0 r
    from funext fun k => v36_apply V0 r k]
  rfl

/-! ## Stage three -/

/-- Row r of the second stage's result array. -/
def row66 (V0 : Valuation τ sig (Elt Ideal)) (r : Fin 32768) : Fin 512 → EReal :=
  fun k => Value.res_main_v66 (F := Ideal) V0 (ix2 r k)

theorem v70_apply (V0 : Valuation τ sig (Elt Ideal)) (r : Fin 32768) :
    Value.res_main_v70 (F := Ideal) V0 (ix2 r (0 : Fin 1))
      = Cert.CriticSpec.mean Cert.CriticSpec.len512 (row66 V0 r) := by
  unfold Value.res_main_v70
  exact meanColumn_apply (Value.res_main_v66 (F := Ideal) V0) 0x44000000#32 _ _ _ _ r

theorem v72_apply (V0 : Valuation τ sig (Elt Ideal)) (r : Fin 32768) (k : Fin 512) :
    Value.res_main_v72 (F := Ideal) V0 (ix2 r k)
      = row66 V0 r k - Cert.CriticSpec.mean Cert.CriticSpec.len512 (row66 V0 r) := by
  unfold Value.res_main_v72
  rw [subf_apply, acrossRow_apply, v70_apply]
  rfl

/-! ## The result at a row -/

/-- The reference's result at row r is the specification's network on row r of the feature array. -/
theorem refOut_apply (V0 : Valuation τ sig (Elt Ideal)) (r : Fin 32768) :
    refOut V0 (ix2 r (0 : Fin 1)) = Cert.CriticSpec.rowOut
      (fun k => Value.res_main_v6 (F := Ideal) V0 (ix2 r k))
      (fun k => V0 (Proc.devRef .tc main_arg2) (ix1 k)) (fun k => V0 (Proc.devRef .tc main_arg3) (ix1 k))
      (fun c k => V0 (Proc.devRef .tc main_arg8) (ix2 c k)) (fun c => V0 (Proc.devRef .tc main_arg9) (ix1 c))
      (fun k => V0 (Proc.devRef .tc main_arg4) (ix1 k)) (fun k => V0 (Proc.devRef .tc main_arg5) (ix1 k))
      (fun c k => V0 (Proc.devRef .tc main_arg10) (ix2 c k)) (fun c => V0 (Proc.devRef .tc main_arg11) (ix1 c))
      (fun k => V0 (Proc.devRef .tc main_arg6) (ix1 k)) (fun k => V0 (Proc.devRef .tc main_arg7) (ix1 k))
      (fun c k => V0 (Proc.devRef .tc main_arg12) (ix2 c k)) (fun c => V0 (Proc.devRef .tc main_arg13) (ix1 c))
      (fun k => V0 (Proc.devRef .tc main_arg14) (ix2 (0 : Fin 1) k)) (V0 (Proc.devRef .tc main_arg15) (ix1 (0 : Fin 1))) := by
  unfold refOut
  refine (lastMap_apply _ _ _ _ rfl _ _ _ r).trans ?_
  unfold Cert.CriticSpec.rowOut
  refine congrArg (fun s => Ideal.tanh (s + V0 (Proc.devRef .tc main_arg15) (ix1 (0 : Fin 1))))
    (Finset.sum_congr rfl fun k _ => congrArg (· * V0 (Proc.devRef .tc main_arg14) (ix2 (0 : Fin 1) k)) ?_)
  refine (stage_apply (Value.res_main_v66 (F := Ideal) V0) (Value.res_main_v72 (F := Ideal) V0)
    (Value.res_main_v70 (F := Ideal) V0) 0x44000000#32 _ _ _ _ (v70_apply V0) (v72_apply V0) _ rfl _ _ _ _ _ _ _ _ _ _ r k).trans ?_
  rw [show (fun k => (Value.res_main_v66 (F := Ideal) V0 : FVec Ideal S32768x512 .f32) (ix2 r k)) = hid2 V0 r
    from funext fun k => v66_apply V0 r k]
  rfl

end Cert.ReferenceIdeal.Row

end
-- ==== Proof.lean ====
/-
  The kernel streams blocks of 512 rows of a feature array through three "normalise the row, affine map, tanh"
  stages and a last affine map under tanh, one output number per row; the reference does the same on the whole
  array with a matrix product per stage. On the extended reals a change of float format is the identity and a sum
  does not depend on its order or tiling, so both compute, for every row, one function of that row and of the
  parameters (`Cert.CriticSpec.rowOut`). Both programs build the feature array from the first two arguments with
  the same host operations, so it enters the comparison as one array and is never opened.

  The three frames: each kernel program runs its host operations, then the pipelined region whose body only
  overwrites its own output block, and no argument array is written; the reference is a straight line of host
  operations. The ideal pass rewrote nothing, so the idealization claim has no conjunct.
-/
import proofs.«150316_j43980465111579_2_alg».proof.Defs
import proofs.«150316_j43980465111579_2_alg».proof.Proof.Gen.Kernel
import proofs.«150316_j43980465111579_2_alg».proof.Proof.Gen.KernelIdeal
import proofs.«150316_j43980465111579_2_alg».proof.Proof.Gen.ReferenceIdeal
import proofs.«150316_j43980465111579_2_alg».proof.Proof.Gen.Pre_finite_inputs
import proofs.«150316_j43980465111579_2_alg».proof.Proof.KFrame
import proofs.«150316_j43980465111579_2_alg».proof.Proof.KIValue
import proofs.«150316_j43980465111579_2_alg».proof.Proof.RefRow
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

theorem frame_k : Cert.frame_Kernel (hKernel := Cert.Kernel.Gen.facts) (hPre_finite_inputs := Cert.Pre_finite_inputs.Gen.facts) :=
  fun m ρ _ => Cert.Kernel.Hand.frame m ρ

theorem frame_ki : Cert.frame_KernelIdeal (hKernelIdeal := Cert.KernelIdeal.Gen.facts) (hPre_finite_inputs := Cert.Pre_finite_inputs.Gen.facts) :=
  fun m ρ _ => Cert.KernelIdeal.Hand.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The feature array the reference builds from arguments that agree with the kernel's is the one the kernel's region finds. -/
theorem features_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    Cert.ReferenceIdeal.Value.res_main_v6 (StableHlo.launchContents m' c) = Cert.KernelIdeal.Hand.V m c Cert.KernelIdeal.main_v6 := by
  rw [Cert.KernelIdeal.HandValue.V_main_v6]
  unfold Cert.ReferenceIdeal.Value.res_main_v6
  show _ = _
  rw [show StableHlo.launchContents m' c (Proc.devRef .tc Cert.ReferenceIdeal.main_arg0) = m' ((c.tc : Thread Cert.ReferenceIdeal.nD Cert.ReferenceIdeal.τ).loc Cert.ReferenceIdeal.main_arg0) from rfl,
    show StableHlo.launchContents m' c (Proc.devRef .tc Cert.ReferenceIdeal.main_arg1) = m' ((c.tc : Thread Cert.ReferenceIdeal.nD Cert.ReferenceIdeal.τ).loc Cert.ReferenceIdeal.main_arg1) from rfl, h0, h1]

theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.KernelIdeal.HandValue.resultOf m c, Cert.KernelIdeal.HandValue.run m ρ, ?_⟩
  refine (θ_run Cert.ReferenceIdeal.defs _ _).mono (fun _ h c => ⟨(h c).1.trans ?_, (h c).2⟩) (Cert.ReferenceIdeal.Row.run' m' ρ')
  obtain ⟨a0, a1, a2, a3, a4, a5, a6, a7, a8, a9, a10, a11, a12, a13, a14, a15⟩ := hagree c
  funext i
  obtain ⟨r, q, rfl⟩ : ∃ (r : Fin 32768) (q : Fin 1), i = ix2 r q := ⟨i 0, i 1, eq_ix2 i⟩
  obtain rfl : q = 0 := Subsingleton.elim _ _
  rw [Cert.ReferenceIdeal.Row.refOut_apply, features_eq m m' c a0 a1]
  show _ = Cert.KernelIdeal.HandValue.rowOf _ _ _ _ _ _ _ _ _ _ _ _ _ _ _ r
  unfold Cert.KernelIdeal.HandValue.rowOf
  rw [← a2, ← a3, ← a4, ← a5, ← a6, ← a7, ← a8, ← a9, ← a10, ← a11, ← a12, ← a13, ← a14, ← a15]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
